-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S50000x256 : S_.BroadcastsInDim S50000x256 (![] : Fin 0 → Fin S50000x256.rank)
  reducesTo_S50000x256_S_d0_1 : S50000x256.ReducesTo [0, 1] S_

variable [Facts]

def fn_part1 {F : FTy → Type} [FloatOps F] (main_arg5 : FVec F S64 .f32) (main_arg6 : FVec F S50000x256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S50000x256 .f32 := Host.absf main_arg6
  let main_cst_8 : FVec F S_ .f32 := constant S_ .f32 0x7F800000#32
  let main_v25 : FVec F S50000x256 .f32 := broadcastInDim S50000x256 ![] bcast_S_S50000x256 main_cst_8
  let main_v26 : IVec S50000x256 1 := cmpf .olt main_v24 main_v25
  let main_c_9 : IVec S_ 1 := constantI S_ 1 1#1
  let main_v27 : IVec S_ 1 := (fun x v => Host.reduce IntOp.andi x v reducesTo_S50000x256_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) (main_arg6 : FVec F S50000x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x256 : Shape := ⟨2, ![1, 256]⟩
abbrev S50000x64 : Shape := ⟨2, ![50000, 64]⟩
abbrev S2000x128 : Shape := ⟨2, ![2000, 128]⟩
abbrev S2000x1 : Shape := ⟨2, ![2000, 1]⟩
abbrev S2000x256 : Shape := ⟨2, ![2000, 256]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩

abbrev nBuf : Space → Nat
  | .hbm => 63
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000x256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S1x256, .f32⟩
  | .hbm, ⟨45, _⟩ => ⟨S50000x64, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x64, .f32⟩
  | .hbm, ⟨55, _⟩ => ⟨S_, .f32⟩
  | .hbm, ⟨56, _⟩ => ⟨S50000x64, .f32⟩
  | .hbm, ⟨57, _⟩ => ⟨S850000x1, .i32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S1x64, .f32⟩
  | .hbm, ⟨62, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S256x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x64_S256x64_0_0 : ∀ a, (![0, 0] : Fin 2 → Nat) a + S256x64.size a ≤ S256x64.size a
  h_S256x64 : 0 < S256x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  reduces_S2000x64_S2000 : S2000x64.Reduces [1] S2000
  shapeCasts_S2000_S2000x1 : S2000.ShapeCasts S2000x1
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000x256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x64, .f32⟩
  | .hbm, ⟨100, _⟩ => ⟨S850000x1, .f32⟩
  | .hbm, ⟨101, _⟩ => ⟨S850000x64, .f32⟩
  | .hbm, ⟨102, _⟩ => ⟨S850000x64, .f32⟩
  | .hbm, ⟨103, _⟩ => ⟨S_, .f32⟩
  | .hbm, ⟨104, _⟩ => ⟨S50000x64, .f32⟩
  | .hbm, ⟨105, _⟩ => ⟨S850000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S_, .f32⟩
  | .hbm, ⟨120, _⟩ => ⟨S50000, .f32⟩
  | .hbm, ⟨121, _⟩ => ⟨S50000x1, .f32⟩
  | .hbm, ⟨122, _⟩ => ⟨S50000x1, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v81 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result NAMED.

  The program is a line of host operations, a first kernel region, a second line of host operations and a second kernel
  region. Its buffers' contents at each boundary form a fold from the launch memory: a line of host operations
  applies its operations' functions, and a region leaves each of its arrays at what its grid points' write-backs leave
  and every other buffer as it found it. Every weakly fair execution ends with every unscoped buffer at the last
  boundary's contents; so the result buffer ends at those contents, and every argument at its launch contents.
-/
import proofs.«129579_j9998683865528_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result buffer ends at the last boundary's contents
    and the seven arguments end as launched. -/
theorem run_named : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

/-- The result buffer is the second region's output array: at the last boundary it holds what that region's grid
    points' write-backs leave. -/
theorem result_arr (c : Dev nD) :
    W6 m ρ c (Proc.devRef .tc main_v43) = (dat1 (V5 m ρ) c).arrAt 2 cfg1.N := W6_arr m ρ c 2

end Cert.KernelIdeal.GcnRun

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.GcnSpec.lean ====
/-
  What the two kernel regions compute, as whole-array functions read index by index over the extended reals.

  * The first region works on 50000 node rows. Row `r` of its result is, at class `q`,
      ( ∑ j < 256, ( max( ∑ f < 128, (A r f · D r) · W₁ f j  +  B₁ j , 0 ) · M r j ) · W₂ j q ) · D r :
    the aggregated features scaled by the node's weight, the first dense layer with its bias, the rectifier, the
    dropout mask, the second dense layer, and the node's weight again. A row depends on row `r` of `A`, `D`, `M` only.
  * The second region adds a bias row and takes the log-softmax of each row: with `Z k = A r k + b k` and `μ` the
    maximum of the row (the fold of `max` from −∞), the entry at `q` is `(Z q − μ) − log ∑ k, exp (Z k − μ)`.

  −∞ is kept as the float word both programs seed the row maximum with; it is never evaluated.
-/
import Idealize.ShloMosaic.Lib.ValueIdx
import Idealize.ShloMosaic.PureOps.Ideal.Laws

open scoped BigOperators

noncomputable section

namespace Cert.GcnSpec

open Idealize.ShloMosaic Idealize.ShloMosaic.ValueIdx

/-- The seed of a row maximum: the float word of −∞, read at the exact values. -/
abbrev negInf : EReal := Ideal.ofBits .f32 0xFF800000#32

/-- A row's maximum: the fold of `max` from −∞ over its 64 entries. -/
def rowMax (Z : Fin 64 → EReal) : EReal := (Finset.univ : Finset (Fin 64)).fold max negInf Z

/-- The log-softmax of one row of 64 entries, at entry `q`. -/
def logSoftmaxRow (Z : Fin 64 → EReal) (q : Fin 64) : EReal :=
  (Z q - rowMax Z) - Ideal.log (∑ k : Fin 64, Ideal.exp (Z k - rowMax Z))

/-- The second region: bias row added, then each row's log-softmax. -/
def biasLogSoftmax (A : (⟨2, ![50000, 64]⟩ : Shape).Idx → EReal) (b : (⟨2, ![1, 64]⟩ : Shape).Idx → EReal) :
    (⟨2, ![50000, 64]⟩ : Shape).Idx → EReal :=
  fun i => logSoftmaxRow (fun k => A (ix2 (i 0) k) + b (ix2 (0 : Fin 1) k)) (i 1)

/-- The hidden activation of node row `r` at unit `j`: first dense layer on the scaled aggregate, bias, rectifier,
    dropout mask. -/
def hidden (A : (⟨2, ![50000, 128]⟩ : Shape).Idx → EReal) (D : (⟨2, ![50000, 1]⟩ : Shape).Idx → EReal)
    (W₁ : (⟨2, ![128, 256]⟩ : Shape).Idx → EReal) (B₁ : (⟨2, ![1, 256]⟩ : Shape).Idx → EReal)
    (M : (⟨2, ![50000, 256]⟩ : Shape).Idx → EReal) (r : Fin 50000) (j : Fin 256) : EReal :=
  max ((∑ f : Fin 128, (A (ix2 r f) * D (ix2 r (0 : Fin 1))) * W₁ (ix2 f j)) + B₁ (ix2 (0 : Fin 1) j)) 0 * M (ix2 r j)

/-- The first region at node row `r`, class `q`. -/
def fusedAt (A : (⟨2, ![50000, 128]⟩ : Shape).Idx → EReal) (D : (⟨2, ![50000, 1]⟩ : Shape).Idx → EReal)
    (W₁ : (⟨2, ![128, 256]⟩ : Shape).Idx → EReal) (B₁ : (⟨2, ![1, 256]⟩ : Shape).Idx → EReal)
    (M : (⟨2, ![50000, 256]⟩ : Shape).Idx → EReal) (W₂ : (⟨2, ![256, 64]⟩ : Shape).Idx → EReal)
    (r : Fin 50000) (q : Fin 64) : EReal :=
  (∑ j : Fin 256, hidden A D W₁ B₁ M r j * W₂ (ix2 j q)) * D (ix2 r (0 : Fin 1))

/-- The first region as a whole-array function. -/
def fused (A : (⟨2, ![50000, 128]⟩ : Shape).Idx → EReal) (D : (⟨2, ![50000, 1]⟩ : Shape).Idx → EReal)
    (W₁ : (⟨2, ![128, 256]⟩ : Shape).Idx → EReal) (B₁ : (⟨2, ![1, 256]⟩ : Shape).Idx → EReal)
    (M : (⟨2, ![50000, 256]⟩ : Shape).Idx → EReal) (W₂ : (⟨2, ![256, 64]⟩ : Shape).Idx → EReal) :
    (⟨2, ![50000, 64]⟩ : Shape).Idx → EReal :=
  fun i => fusedAt A D W₁ B₁ M W₂ (i 0) (i 1)

/-- The second region's function read at `(v, q)`. -/
theorem biasLogSoftmax_apply (A : (⟨2, ![50000, 64]⟩ : Shape).Idx → EReal) (b : (⟨2, ![1, 64]⟩ : Shape).Idx → EReal)
    (v : Fin 50000) (q : Fin 64) :
    biasLogSoftmax A b (ix2 v q) = logSoftmaxRow (fun k => A (ix2 v k) + b (ix2 (0 : Fin 1) k)) q := rfl

/-- The first region's function read at `(u, k)`. -/
theorem fused_apply (A : (⟨2, ![50000, 128]⟩ : Shape).Idx → EReal) (D : (⟨2, ![50000, 1]⟩ : Shape).Idx → EReal)
    (W₁ : (⟨2, ![128, 256]⟩ : Shape).Idx → EReal) (B₁ : (⟨2, ![1, 256]⟩ : Shape).Idx → EReal)
    (M : (⟨2, ![50000, 256]⟩ : Shape).Idx → EReal) (W₂ : (⟨2, ![256, 64]⟩ : Shape).Idx → EReal) (u : Fin 50000) (k : Fin 64) :
    fused A D W₁ B₁ M W₂ (ix2 u k) = fusedAt A D W₁ B₁ M W₂ u k := rfl

end Cert.GcnSpec

end
-- ==== Proof.KernelHost.lean ====
/-
  The idealized kernel's host operations, read as functions of the launch arguments.

  Before the first region the host computes, from the edge list: the source and destination index vectors (the edge
  list's two rows, each followed by the self-loops `0 … 49999`), the in-degree of every node as an accumulating scatter
  of ones, its inverse square root where positive (zero elsewhere) as the node weight `d`, the features scaled row-wise
  by `d`, gathered along the sources and accumulated at the destinations. Between the regions it gathers the first
  region's result along the sources, accumulates at the destinations and scales row-wise by `d`. The index vectors, the
  degrees and `d` are the reference program's own stages of the same edge list, so they are written with the
  reference's stage functions; what only the kernel computes is written out.

  The host line is read one stretch at a time, each stretch as a function of the buffers' contents at its start.
-/
import proofs.«129579_j9998683865528_2_alg».proof.Proof.Gen.KernelIdeal.Frame
import proofs.«129579_j9998683865528_2_alg».proof.Proof.RefReadPatched
import proofs.«129579_j9998683865528_2_alg».proof.Proof.LibTypedRef
import proofs.«129579_j9998683865528_2_alg».proof.Proof.LibJoinPair
import proofs.«129579_j9998683865528_2_alg».proof.Proof.GcnSpec

set_option maxRecDepth 65536

noncomputable section

namespace Cert.KernelIdeal.GcnHost

open Cert.KernelIdeal Cert.KernelIdeal.Gen
open Idealize.ShloMosaic Idealize.ShloMosaic.TcCoe Idealize.ShloMosaic.StableHlo
open Idealize.SL.Sem
open Cert.GcnSpec

/-! ## The stages only the kernel computes -/

/-- A source index wrapped (a negative one by +50000), as a column. -/
def wrapCol (src : IVec S850000 32) : IVec S850000x1 32 :=
  broadcastInDim S850000x1 ![0] bcast_S850000_S850000x1_0
    (select (cmpi .slt src (broadcastInDim S850000 ![] bcast_S_S850000 (constantI S_ 32 0#32)))
      (addi src (broadcastInDim S850000 ![] bcast_S_S850000 (constantI S_ 32 50000#32))) src)

/-- The node weights as a column `[50000, 1]`. -/
def colOf (dinv : FVec Ideal S50000 .f32) : FVec Ideal S50000x1 .f32 :=
  broadcastInDim S50000x1 ![0] bcast_S50000_S50000x1_0 dinv

/-- The features scaled row-wise by the node weights, gathered along the sources, accumulated at the destinations. -/
def aggxOf (x : FVec Ideal S50000x128 .f32) (src dst : IVec S850000 32) (dinv : FVec Ideal S50000 .f32) :
    FVec Ideal S50000x128 .f32 :=
  Host.scatterAdd scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (Host.gather gather_S50000x128_S850000x1_S850000x128_1_0_n_n_0_1_1128
      (mulf x (broadcastInDim S50000x128 ![0, 1] bcast_S50000x1_S50000x128_0_1 (colOf dinv)))
      (wrapCol src))

/-- A region result gathered along the sources, accumulated at the destinations and scaled row-wise by the weights. -/
def agg2Of (H : FVec Ideal S50000x64 .f32) (src dst : IVec S850000 32) (dcol : FVec Ideal S50000x1 .f32) :
    FVec Ideal S50000x64 .f32 :=
  mulf (Host.scatterAdd scatter_S50000x64_S850000x1_S850000x64_1_0_0_1
      (broadcastInDim S50000x64 ![] bcast_S_S50000x64 (constant (F := Ideal) S_ .f32 0x00000000#32))
      (broadcastInDim S850000x1 ![0] bcast_S850000_S850000x1_0 dst)
      (Host.gather gather_S50000x64_S850000x1_S850000x64_1_0_n_n_0_1_164 H (wrapCol src)))
    (broadcastInDim S50000x64 ![0, 1] bcast_S50000x1_S50000x64_0_1 dcol)

/-- The node-weight column of an edge list. -/
def dcol (a1 : IVec S2x800000 32) : FVec Ideal S50000x1 .f32 :=
  colOf (Cert.ReferenceIdeal.ReadP.val_main_v14 (F := Ideal) a1)

/-- The aggregated features of an edge list. -/
def aggx (a0 : FVec Ideal S50000x128 .f32) (a1 : IVec S2x800000 32) : FVec Ideal S50000x128 .f32 :=
  aggxOf a0 (Cert.ReferenceIdeal.ReadP.val_main_v3 (F := Ideal) a1) (Cert.ReferenceIdeal.ReadP.val_main_v6 (F := Ideal) a1)
    (Cert.ReferenceIdeal.ReadP.val_main_v14 (F := Ideal) a1)

/-- The host stage between the regions, of an edge list. -/
def agg2 (H : FVec Ideal S50000x64 .f32) (a1 : IVec S2x800000 32) : FVec Ideal S50000x64 .f32 :=
  agg2Of H (Cert.ReferenceIdeal.ReadP.val_main_v3 (F := Ideal) a1) (Cert.ReferenceIdeal.ReadP.val_main_v6 (F := Ideal) a1) (dcol a1)

/-! ## Each stretch, from any contents `V` at its start -/

section Stretches
variable (V : Valuation τ sig (Elt Ideal))

set_option maxHeartbeats 4000000 in
/-- The first stretch computes the index vectors, the degree test, the inverse square root and the zero. -/
theorem first_stretch (a1 : IVec S2x800000 32) (h1 : V (Proc.devRef .tc main_arg1) = a1) :
    StableHlo.after hostOps0 V (Proc.devRef .tc main_v3) = Cert.ReferenceIdeal.ReadP.val_main_v3 (F := Ideal) a1
    ∧ StableHlo.after hostOps0 V (Proc.devRef .tc main_v6) = Cert.ReferenceIdeal.ReadP.val_main_v6 (F := Ideal) a1
    ∧ StableHlo.after hostOps0 V (Proc.devRef .tc main_v12) = Cert.ReferenceIdeal.ReadP.val_main_v12 (F := Ideal) a1
    ∧ StableHlo.after hostOps0 V (Proc.devRef .tc main_v13) = Cert.ReferenceIdeal.ReadP.val_main_v13 (F := Ideal) a1
    ∧ StableHlo.after hostOps0 V (Proc.devRef .tc main_cst_2) = constant (F := Ideal) S_ .f32 0x00000000#32 := by
  subst h1
  refine ⟨?_, ?_, ?_, ?_, ?_⟩
  all_goals
    dsimp only [hostOps0]
    after_results_simp
    try simp only [Cert.JoinPair.concatenate_pair_eq]
    try after_results_simp
    try rfl

set_option maxHeartbeats 4000000 in
/-- The first stretch leaves the arguments alone. -/
theorem first_stretch_args :
    StableHlo.after hostOps0 V (Proc.devRef .tc main_arg0) = V (Proc.devRef .tc main_arg0)
    ∧ StableHlo.after hostOps0 V (Proc.devRef .tc main_arg2) = V (Proc.devRef .tc main_arg2)
    ∧ StableHlo.after hostOps0 V (Proc.devRef .tc main_arg3) = V (Proc.devRef .tc main_arg3)
    ∧ StableHlo.after hostOps0 V (Proc.devRef .tc main_arg4) = V (Proc.devRef .tc main_arg4)
    ∧ StableHlo.after hostOps0 V (Proc.devRef .tc main_arg5) = V (Proc.devRef .tc main_arg5)
    ∧ StableHlo.after hostOps0 V (Proc.devRef .tc main_arg6) = V (Proc.devRef .tc main_arg6) := by
  refine ⟨?_, ?_, ?_, ?_, ?_, ?_⟩
  all_goals
    dsimp only [hostOps0]
    after_results_simp

set_option maxHeartbeats 4000000 in
/-- The second stretch selects the node weights and leaves every other buffer used later alone. -/
theorem second_stretch :
    StableHlo.after hostOps0_1 V (Proc.devRef .tc main_v14)
        = select (V (Proc.devRef .tc main_v12)) (V (Proc.devRef .tc main_v13))
            (broadcastInDim S50000 ![] bcast_S_S50000 (id (V (Proc.devRef .tc main_cst_2))))
    ∧ StableHlo.after hostOps0_1 V (Proc.devRef .tc main_v3) = V (Proc.devRef .tc main_v3)
    ∧ StableHlo.after hostOps0_1 V (Proc.devRef .tc main_v6) = V (Proc.devRef .tc main_v6)
    ∧ StableHlo.after hostOps0_1 V (Proc.devRef .tc main_arg0) = V (Proc.devRef .tc main_arg0)
    ∧ StableHlo.after hostOps0_1 V (Proc.devRef .tc main_arg2) = V (Proc.devRef .tc main_arg2)
    ∧ StableHlo.after hostOps0_1 V (Proc.devRef .tc main_arg3) = V (Proc.devRef .tc main_arg3)
    ∧ StableHlo.after hostOps0_1 V (Proc.devRef .tc main_arg4) = V (Proc.devRef .tc main_arg4)
    ∧ StableHlo.after hostOps0_1 V (Proc.devRef .tc main_arg5) = V (Proc.devRef .tc main_arg5)
    ∧ StableHlo.after hostOps0_1 V (Proc.devRef .tc main_arg6) = V (Proc.devRef .tc main_arg6) := by
  refine ⟨?_, ?_, ?_, ?_, ?_, ?_, ?_, ?_, ?_⟩
  all_goals
    dsimp only [hostOps0_1]
    after_results_simp
    try rfl

set_option maxHeartbeats 4000000 in
/-- The third stretch builds the node-weight column, the aggregated features and the bias row. -/
theorem third_stretch :
    StableHlo.after hostOps0_2 V (Proc.devRef .tc main_v15) = colOf (V (Proc.devRef .tc main_v14))
    ∧ StableHlo.after hostOps0_2 V (Proc.devRef .tc main_v27)
        = aggxOf (V (Proc.devRef .tc main_arg0)) (V (Proc.devRef .tc main_v3)) (V (Proc.devRef .tc main_v6)) (V (Proc.devRef .tc main_v14))
    ∧ StableHlo.after hostOps0_2 V (Proc.devRef .tc main_v28) = shapeCast S1x256 (V (Proc.devRef .tc main_arg3)) shapeCasts_S256_S1x256
    ∧ StableHlo.after hostOps0_2 V (Proc.devRef .tc main_v3) = V (Proc.devRef .tc main_v3)
    ∧ StableHlo.after hostOps0_2 V (Proc.devRef .tc main_v6) = V (Proc.devRef .tc main_v6)
    ∧ StableHlo.after hostOps0_2 V (Proc.devRef .tc main_arg2) = V (Proc.devRef .tc main_arg2)
    ∧ StableHlo.after hostOps0_2 V (Proc.devRef .tc main_arg4) = V (Proc.devRef .tc main_arg4)
    ∧ StableHlo.after hostOps0_2 V (Proc.devRef .tc main_arg5) = V (Proc.devRef .tc main_arg5)
    ∧ StableHlo.after hostOps0_2 V (Proc.devRef .tc main_arg6) = V (Proc.devRef .tc main_arg6) := by
  refine ⟨?_, ?_, ?_, ?_, ?_, ?_, ?_, ?_, ?_⟩
  all_goals
    dsimp only [hostOps0_2]
    after_results_simp
    try rfl

set_option maxHeartbeats 4000000 in
/-- The stretch between the regions builds the second region's operand and bias row. -/
theorem mid_stretch :
    StableHlo.after hostOps1 V (Proc.devRef .tc main_v41)
        = agg2Of (V (Proc.devRef .tc main_v29)) (V (Proc.devRef .tc main_v3)) (V (Proc.devRef .tc main_v6)) (V (Proc.devRef .tc main_v15))
    ∧ StableHlo.after hostOps1 V (Proc.devRef .tc main_v42) = shapeCast S1x64 (V (Proc.devRef .tc main_arg5)) shapeCasts_S64_S1x64 := by
  refine ⟨?_, ?_⟩
  all_goals
    dsimp only [hostOps1]
    after_results_simp
    try rfl

end Stretches

variable (m : (ℓ : Loc nD τ sig) → Buf (Elt Ideal) ℓ) (ρ : Dev nD → PrngReg)

/-! ## At the first region's entry -/

/-- The node weights at the second boundary are the reference's stage of the edge list. -/
theorem weights (c : Dev nD) :
    W2 m ρ c (Proc.devRef .tc main_v14) = Cert.ReferenceIdeal.ReadP.val_main_v14 (F := Ideal) (m ((c : Thread nD τ).loc main_arg1)) := by
  obtain ⟨-, -, e12, e13, e0⟩ := first_stretch (W0 m ρ c) (m ((c : Thread nD τ).loc main_arg1)) rfl
  refine ((second_stretch (W1 m ρ c)).1).trans ?_
  show select (StableHlo.after hostOps0 (W0 m ρ c) (Proc.devRef .tc main_v12)) (StableHlo.after hostOps0 (W0 m ρ c) (Proc.devRef .tc main_v13))
      (broadcastInDim S50000 ![] bcast_S_S50000 (id (StableHlo.after hostOps0 (W0 m ρ c) (Proc.devRef .tc main_cst_2)))) = _
  rw [e12, e13, e0]
  rfl

theorem entry0_v3 (c : Dev nD) :
    W3 m ρ c (Proc.devRef .tc main_v3) = Cert.ReferenceIdeal.ReadP.val_main_v3 (F := Ideal) (m ((c : Thread nD τ).loc main_arg1)) :=
  ((third_stretch (W2 m ρ c)).2.2.2.1).trans (((second_stretch (W1 m ρ c)).2.1).trans
    (first_stretch (W0 m ρ c) (m ((c : Thread nD τ).loc main_arg1)) rfl).1)

theorem entry0_v6 (c : Dev nD) :
    W3 m ρ c (Proc.devRef .tc main_v6) = Cert.ReferenceIdeal.ReadP.val_main_v6 (F := Ideal) (m ((c : Thread nD τ).loc main_arg1)) :=
  ((third_stretch (W2 m ρ c)).2.2.2.2.1).trans (((second_stretch (W1 m ρ c)).2.2.1).trans
    (first_stretch (W0 m ρ c) (m ((c : Thread nD τ).loc main_arg1)) rfl).2.1)

theorem entry0_v15 (c : Dev nD) :
    V3 m ρ c main_v15 = dcol (m ((c : Thread nD τ).loc main_arg1)) := by
  refine ((third_stretch (W2 m ρ c)).1).trans ?_
  rw [weights]
  rfl

theorem entry0_v27 (c : Dev nD) :
    V3 m ρ c main_v27 = aggx (m ((c : Thread nD τ).loc main_arg0)) (m ((c : Thread nD τ).loc main_arg1)) := by
  refine ((third_stretch (W2 m ρ c)).2.1).trans ?_
  have e3 : W2 m ρ c (Proc.devRef .tc main_v3) = Cert.ReferenceIdeal.ReadP.val_main_v3 (F := Ideal) (m ((c : Thread nD τ).loc main_arg1)) :=
    ((second_stretch (W1 m ρ c)).2.1).trans (first_stretch (W0 m ρ c) (m ((c : Thread nD τ).loc main_arg1)) rfl).1
  have e6 : W2 m ρ c (Proc.devRef .tc main_v6) = Cert.ReferenceIdeal.ReadP.val_main_v6 (F := Ideal) (m ((c : Thread nD τ).loc main_arg1)) :=
    ((second_stretch (W1 m ρ c)).2.2.1).trans (first_stretch (W0 m ρ c) (m ((c : Thread nD τ).loc main_arg1)) rfl).2.1
  have e0 : W2 m ρ c (Proc.devRef .tc main_arg0) = m ((c : Thread nD τ).loc main_arg0) :=
    ((second_stretch (W1 m ρ c)).2.2.2.1).trans (first_stretch_args (W0 m ρ c)).1
  rw [e3, e6, e0, weights]
  rfl

theorem entry0_v28 (c : Dev nD) :
    V3 m ρ c main_v28 = shapeCast S1x256 (m ((c : Thread nD τ).loc main_arg3)) shapeCasts_S256_S1x256 := by
  refine ((third_stretch (W2 m ρ c)).2.2.1).trans ?_
  have e : W2 m ρ c (Proc.devRef .tc main_arg3) = m ((c : Thread nD τ).loc main_arg3) :=
    ((second_stretch (W1 m ρ c)).2.2.2.2.2.1).trans (first_stretch_args (W0 m ρ c)).2.2.1
  rw [e]

theorem entry0_arg (c : Dev nD) :
    V3 m ρ c main_arg2 = m ((c : Thread nD τ).loc main_arg2) ∧ V3 m ρ c main_arg4 = m ((c : Thread nD τ).loc main_arg4)
      ∧ V3 m ρ c main_arg6 = m ((c : Thread nD τ).loc main_arg6) :=
  ⟨((third_stretch (W2 m ρ c)).2.2.2.2.2.1).trans (((second_stretch (W1 m ρ c)).2.2.2.2.1).trans (first_stretch_args (W0 m ρ c)).2.1),
   ((third_stretch (W2 m ρ c)).2.2.2.2.2.2.1).trans (((second_stretch (W1 m ρ c)).2.2.2.2.2.2.1).trans (first_stretch_args (W0 m ρ c)).2.2.2.1),
   ((third_stretch (W2 m ρ c)).2.2.2.2.2.2.2.2).trans (((second_stretch (W1 m ρ c)).2.2.2.2.2.2.2.2).trans (first_stretch_args (W0 m ρ c)).2.2.2.2.2)⟩

theorem entry0_arg5 (c : Dev nD) :
    W3 m ρ c (Proc.devRef .tc main_arg5) = m ((c : Thread nD τ).loc main_arg5) :=
  ((third_stretch (W2 m ρ c)).2.2.2.2.2.2.2.1).trans (((second_stretch (W1 m ρ c)).2.2.2.2.2.2.2.1).trans (first_stretch_args (W0 m ρ c)).2.2.2.2.1)

end Cert.KernelIdeal.GcnHost

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«129579_j9998683865528_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.RegionPayloads.lean ====
/-
  The two kernel bodies, read at one entry over the extended reals.

  Each body stores one value computed from the blocks it loads. Read at row `p` and column `q` of the stored block:
  the second body's value is the log-softmax of row `p` of (block + bias row); the first body's value is the scaled,
  twice-transformed row `p` — both are functions of row `p` of the row-blocked operands and of the whole small operands.
  A change of float format is the identity here, a product into a zero tile is a plain sum over the contracted index,
  a lane reduction is a fold (maximum) or a sum over the row's 64 entries, and the column forms `[a] → [a,1] → [a,b]`
  read the row's one entry.
-/
import proofs.«129579_j9998683865528_2_alg».proof.Proof.Gen.KernelIdeal.Skeleton
import proofs.«129579_j9998683865528_2_alg».proof.Proof.GcnSpec
import proofs.«129579_j9998683865528_2_alg».proof.Proof.LibDotSums
import proofs.«129579_j9998683865528_2_alg».proof.Proof.LibColumnLayout
import Idealize.ShloMosaic.Lib.ValueLayout
import Idealize.ShloMosaic.Lib.Pipeline.Value

open scoped BigOperators

noncomputable section

namespace Cert.KernelIdeal.GcnPayload

open Cert.KernelIdeal Cert.KernelIdeal.Gen Idealize.ShloMosaic Idealize.ShloMosaic.ValueIdx Cert.GcnSpec

/-! ## The second body: bias, row maximum, row sum of exponentials -/

/-- The index a lane reduction over axis 1 reads at coordinate `k` of row `p`. -/
theorem lift_row (p : Fin 2000) (k : Fin 64) :
    (reduces_S2000x64_S2000 : S2000x64.Reduces [1] S2000).lift (ix1 p) k = ix2 p k :=
  funext fun a => Fin.ext (by match a with | ⟨0, _⟩ => rfl | ⟨1, _⟩ => rfl)

/-- A row's maximum, kept as a column and repeated along the row, read at `(p, q)`. -/
theorem rowmax_apply (v : FVec Ideal S2000x64 .f32) (p : Fin 2000) (q : Fin 64) :
    broadcastTo S2000x64 (shapeCast S2000x1 (multiReduction .maximumf [1] S2000 v 0xFF800000#32 reduces_S2000x64_S2000 (.inl rfl) rfl)
      shapeCasts_S2000_S2000x1) broadcasts_S2000x1_S2000x64 (ix2 p q) = rowMax (fun k => v (ix2 p k)) := by
  refine (Cert.ColumnLayout.broadcastTo_a1_ab_apply _ _ p q).trans ?_
  refine (Cert.ColumnLayout.shapeCast_a_a1_apply _ _ p 0).trans ?_
  refine (Ideal.multiReduction_maximumf_single v _ reduces_S2000x64_S2000 (.inl rfl) rfl (ix1 p)).trans ?_
  unfold rowMax
  refine congrArg (fun f => (Finset.univ : Finset (Fin 64)).fold max negInf f) ?_
  funext k
  exact congrArg v (lift_row p k)

/-- The logarithm of a row's sum, kept as a column and repeated along the row, read at `(p, q)`. -/
theorem rowlogsum_apply (w : FVec Ideal S2000x64 .f32) (p : Fin 2000) (q : Fin 64) :
    broadcastTo S2000x64 (log (shapeCast S2000x1 (multiReduction .add [1] S2000 w 0x00000000#32 reduces_S2000x64_S2000 (.inl rfl) rfl)
      shapeCasts_S2000_S2000x1)) broadcasts_S2000x1_S2000x64 (ix2 p q) = Ideal.log (∑ k : Fin 64, w (ix2 p k)) := by
  refine (Cert.ColumnLayout.broadcastTo_a1_ab_apply _ _ p q).trans ?_
  show Ideal.log (shapeCast S2000x1 (multiReduction .add [1] S2000 w 0x00000000#32 reduces_S2000x64_S2000 (.inl rfl) rfl)
      shapeCasts_S2000_S2000x1 (ix2 p (0 : Fin 1))) = _
  refine congrArg Ideal.log ?_
  refine (Cert.ColumnLayout.shapeCast_a_a1_apply _ _ p 0).trans ?_
  refine (Ideal.multiReduction_add_single w _ reduces_S2000x64_S2000 (.inl rfl) rfl (ix1 p)).trans ?_
  exact Finset.sum_congr rfl fun k _ => congrArg w (lift_row p k)

/-- THE SECOND BODY AT `(p, q)`: the log-softmax of row `p` of the block plus the bias row. -/
theorem k1_pay1_apply (x0 : FVec Ideal S1x64 .f32) (x4 : FVec Ideal S2000x64 .f32) (p : Fin 2000) (q : Fin 64) :
    k1_pay1 (F := Ideal) x0 x4 (ix2 p q) = logSoftmaxRow (fun k => x4 (ix2 p k) + x0 (ix2 (0 : Fin 1) k)) q := by
  have e6 : ∀ k : Fin 64, addf x4 (broadcastTo S2000x64 x0 broadcasts_S1x64_S2000x64) (ix2 p k)
      = x4 (ix2 p k) + x0 (ix2 (0 : Fin 1) k) := fun k =>
    congrArg (x4 (ix2 p k) + ·) (broadcastTo_1b_ab_apply x0 broadcasts_S1x64_S2000x64 p k)
  have eM : ∀ k : Fin 64, broadcastTo S2000x64 (shapeCast S2000x1 (multiReduction .maximumf [1] S2000
        (addf x4 (broadcastTo S2000x64 x0 broadcasts_S1x64_S2000x64)) 0xFF800000#32 reduces_S2000x64_S2000 (.inl rfl) rfl)
        shapeCasts_S2000_S2000x1) broadcasts_S2000x1_S2000x64 (ix2 p k)
      = rowMax (fun k => x4 (ix2 p k) + x0 (ix2 (0 : Fin 1) k)) := fun k =>
    (rowmax_apply _ p k).trans (congrArg rowMax (funext e6))
  unfold k1_pay1 logSoftmaxRow
  simp only [shapeCast_self]
  refine (subf_apply _ _ _).trans ?_
  refine congrArg₂ (· - ·) ?_ ?_
  · refine (subf_apply _ _ _).trans ?_
    exact congrArg₂ (· - ·) (e6 q) (eM q)
  · refine (rowlogsum_apply _ p q).trans ?_
    refine congrArg Ideal.log (Finset.sum_congr rfl fun k _ => ?_)
    show Ideal.exp ((subf (F := Ideal) _ _ : FVec Ideal S2000x64 .f32) (ix2 p k)) = _
    refine congrArg Ideal.exp ?_
    refine (subf_apply _ _ _).trans ?_
    exact congrArg₂ (· - ·) (e6 k) (eM k)

/-! ## The first body: scale, dense layer, bias, rectifier, mask, dense layer, scale -/

/-- THE FIRST BODY AT `(p, q)`: with `D p` the row's weight, the sum over the hidden units `j` of
    `max (∑ f, (A p f · D p) · W₁ f j + B₁ j, 0) · M p j · W₂ j q`, times `D p` (read from the second load of the
    weight column). -/
theorem k0_pay1_apply (x0 : FVec Ideal S2000x128 .f32) (x1 : FVec Ideal S2000x1 .f32) (x2 : FVec Ideal S128x256 .f32)
    (x3 : FVec Ideal S1x256 .f32) (x4 : FVec Ideal S2000x256 .f32) (x5 : FVec Ideal S256x64 .f32)
    (x1' : FVec Ideal S2000x1 .f32) (p : Fin 2000) (q : Fin 64) :
    k0_pay1 (F := Ideal) x0 x1 x2 x3 x4 x5 x1' (ix2 p q)
      = (∑ j : Fin 256, (max ((∑ f : Fin 128, (x0 (ix2 p f) * x1 (ix2 p (0 : Fin 1))) * x2 (ix2 f j)) + x3 (ix2 (0 : Fin 1) j)) 0
            * x4 (ix2 p j)) * x5 (ix2 j q)) * x1' (ix2 p (0 : Fin 1)) := by
  unfold k0_pay1
  simp only [shapeCast_self]
  refine (mulf_apply _ _ _).trans ?_
  refine congrArg₂ (· * ·) ?_ (Cert.ColumnLayout.broadcastTo_a1_ab_apply x1' broadcasts_S2000x1_S2000x64 p q)
  refine (Cert.DotSums.matmul_zero_ix2 dot_S2000x256_S256x64_S2000x64_1_0_0_1_n_n none rfl rfl rfl rfl rfl rfl rfl rfl _ _ p q).trans ?_
  refine Finset.sum_congr rfl fun j _ => ?_
  refine congrArg₂ (· * ·) ?_ rfl
  refine (mulf_apply _ _ _).trans ?_
  refine congrArg₂ (· * ·) ?_ rfl
  refine (maximumf_apply _ _ _).trans ?_
  refine congrArg₂ max ?_ Ideal.ofBits_zero_f32
  refine (addf_apply _ _ _).trans ?_
  refine congrArg₂ (· + ·) ?_ (broadcastTo_1b_ab_apply x3 broadcasts_S1x256_S2000x256 p j)
  refine (Cert.DotSums.matmul_zero_ix2 dot_S2000x128_S128x256_S2000x256_1_0_0_1_n_n none rfl rfl rfl rfl rfl rfl rfl rfl _ _ p j).trans ?_
  refine Finset.sum_congr rfl fun f _ => ?_
  refine congrArg₂ (· * ·) ?_ rfl
  refine (mulf_apply _ _ _).trans ?_
  exact congrArg (x0 (ix2 p f) * ·) (Cert.ColumnLayout.broadcastTo_a1_ab_apply x1 broadcasts_S2000x1_S2000x128 p f)

end Cert.KernelIdeal.GcnPayload

end
-- ==== Proof.Region0Value.lean ====
/-
  The first kernel region as one whole-array function.

  The region's grid has 25 points; point `t` works on rows `2000 t … 2000 t + 1999` of the aggregated features, of the
  node-weight column, of the dropout mask and of the result, and on the whole of the two weight matrices and the bias
  row. A result row depends only on the same row of the row-blocked operands, so what point `t` writes back is block
  `t` of ONE function of the arrays the region finds, and the 25 blocks tile the result array.
-/
import proofs.«129579_j9998683865528_2_alg».proof.Proof.Gen.KernelIdeal.Frame
import proofs.«129579_j9998683865528_2_alg».proof.Proof.RegionPayloads
import proofs.«129579_j9998683865528_2_alg».proof.Proof.GcnSpec
import Idealize.ShloMosaic.Lib.Pipeline.Value
import Idealize.ShloMosaic.Lib.ValueIdx

set_option maxRecDepth 16384

open scoped BigOperators

noncomputable section

namespace Cert.KernelIdeal.GcnRegion0

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows (0, 1, 4, 6) sit at block row `t`, block column 0; the
    whole-array windows (2, 3, 5) at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 4000000 in
/-- WHAT POINT `t` WRITES BACK is block `t` of the fused layers of the arrays the region finds. -/
theorem flushed_eq (c : Dev nD) (t : Fin cfg0.N) :
    (dat0 V c).flushed 6 t
      = ((cfg0.win 6).blk t).view.read (Elt Ideal)
          (fused (V c main_v27) (V c main_v15) (V c main_arg2) (V c main_v28) (V c main_arg6) (V c main_arg4)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x256) hz,
    View.ld_unit_zero (S := S1x256) hz, View.ld_unit_zero (S := S2000x256) hz, View.ld_unit_zero (S := S256x64) hz]
  obtain ⟨a0, a1, b0, b1, c0, c1, d0, d1, g0, g1, k0, k1, o0, o1⟩ := idx_facts t
  have ht : t.val < 25 := by have := t.isLt; have hN : cfg0.N = 25 := N_0; omega
  funext j
  obtain ⟨p, q, rfl⟩ : ∃ (p : Fin 2000) (q : Fin 64), j = ix2 p q := ⟨j 0, j 1, eq_ix2 j⟩
  have hemb : ((cfg0.win 6).blk t).view.emb (ix2 p q) = ix2 (⟨t.val * 2000 + p.val, by omega⟩ : Fin 50000) q := by
    funext a; apply Fin.ext
    match a with
    | ⟨0, _⟩ => show win0_6.index t (0 : Fin 2) * 2000 + 1 * p.val = t.val * 2000 + p.val; omega
    | ⟨1, _⟩ => show win0_6.index t (1 : Fin 2) * 64 + 1 * q.val = q.val; omega
  have h0 : ∀ f : Fin 128, ((cfg0.win 0).blk t).view.emb (ix2 p f) = ix2 (⟨t.val * 2000 + p.val, by omega⟩ : Fin 50000) f := by
    intro f; funext a; apply Fin.ext
    match a with
    | ⟨0, _⟩ => show win0_0.index t (0 : Fin 2) * 2000 + 1 * p.val = t.val * 2000 + p.val; omega
    | ⟨1, _⟩ => show win0_0.index t (1 : Fin 2) * 128 + 1 * f.val = f.val; omega
  have h1 : ((cfg0.win 1).blk t).view.emb (ix2 p (0 : Fin 1)) = ix2 (⟨t.val * 2000 + p.val, by omega⟩ : Fin 50000) (0 : Fin 1) := by
    funext a; apply Fin.ext
    match a with
    | ⟨0, _⟩ => show win0_1.index t (0 : Fin 2) * 2000 + 1 * p.val = t.val * 2000 + p.val; omega
    | ⟨1, _⟩ => show win0_1.index t (1 : Fin 2) * 1 + 1 * 0 = 0; omega
  have h2 : ∀ (f : Fin 128) (j : Fin 256), ((cfg0.win 2).blk t).view.emb (ix2 f j) = ix2 f j := by
    intro f j; funext a; apply Fin.ext
    match a with
    | ⟨0, _⟩ => show win0_2.index t (0 : Fin 2) * 128 + 1 * f.val = f.val; omega
    | ⟨1, _⟩ => show win0_2.index t (1 : Fin 2) * 256 + 1 * j.val = j.val; omega
  have h3 : ∀ j : Fin 256, ((cfg0.win 3).blk t).view.emb (ix2 (0 : Fin 1) j) = ix2 (0 : Fin 1) j := by
    intro j; funext a; apply Fin.ext
    match a with
    | ⟨0, _⟩ => show win0_3.index t (0 : Fin 2) * 1 + 1 * 0 = 0; omega
    | ⟨1, _⟩ => show win0_3.index t (1 : Fin 2) * 256 + 1 * j.val = j.val; omega
  have h4 : ∀ j : Fin 256, ((cfg0.win 4).blk t).view.emb (ix2 p j) = ix2 (⟨t.val * 2000 + p.val, by omega⟩ : Fin 50000) j := by
    intro j; funext a; apply Fin.ext
    match a with
    | ⟨0, _⟩ => show win0_4.index t (0 : Fin 2) * 2000 + 1 * p.val = t.val * 2000 + p.val; omega
    | ⟨1, _⟩ => show win0_4.index t (1 : Fin 2) * 256 + 1 * j.val = j.val; omega
  have h5 : ∀ (j : Fin 256) (q : Fin 64), ((cfg0.win 5).blk t).view.emb (ix2 j q) = ix2 j q := by
    intro j q; funext a; apply Fin.ext
    match a with
    | ⟨0, _⟩ => show win0_5.index t (0 : Fin 2) * 256 + 1 * j.val = j.val; omega
    | ⟨1, _⟩ => show win0_5.index t (1 : Fin 2) * 64 + 1 * q.val = q.val; omega
  refine (Cert.KernelIdeal.GcnPayload.k0_pay1_apply _ _ _ _ _ _ _ p q).trans ?_
  refine Eq.trans ?_ (congrArg (fused (V c main_v27) (V c main_v15) (V c main_arg2) (V c main_v28) (V c main_arg6) (V c main_arg4)) hemb).symm
  have e0 : ∀ f : Fin 128, iblk0 V c 0 t (ix2 p f) = V c main_v27 (ix2 (⟨t.val * 2000 + p.val, by omega⟩ : Fin 50000) f) :=
    fun f => congrArg (V c main_v27) (h0 f)
  have e1 : iblk0 V c 1 t (ix2 p (0 : Fin 1)) = V c main_v15 (ix2 (⟨t.val * 2000 + p.val, by omega⟩ : Fin 50000) (0 : Fin 1)) :=
    congrArg (V c main_v15) h1
  have e2 : ∀ (f : Fin 128) (j : Fin 256), iblk0 V c 2 t (ix2 f j) = V c main_arg2 (ix2 f j) :=
    fun f j => congrArg (V c main_arg2) (h2 f j)
  have e3 : ∀ j : Fin 256, iblk0 V c 3 t (ix2 (0 : Fin 1) j) = V c main_v28 (ix2 (0 : Fin 1) j) :=
    fun j => congrArg (V c main_v28) (h3 j)
  have e4 : ∀ j : Fin 256, iblk0 V c 4 t (ix2 p j) = V c main_arg6 (ix2 (⟨t.val * 2000 + p.val, by omega⟩ : Fin 50000) j) :=
    fun j => congrArg (V c main_arg6) (h4 j)
  have e5 : ∀ (j : Fin 256) (q : Fin 64), iblk0 V c 5 t (ix2 j q) = V c main_arg4 (ix2 j q) :=
    fun j q => congrArg (V c main_arg4) (h5 j q)
  simp only [e0, e1, e2, e3, e4, e5]
  rfl

/-- An index of the result array is in point `t`'s block iff each coordinate is in the block's range on its axis. -/
theorem mem_blk (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v29).slice (win0_6.rect t)).set ↔ _
  rw [View.set_slice_whole, Rect.mem_set_unit]
  exact Iff.rfl

/-- Every row lies in the block of the point numbered by its quotient by 2000. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_6 _, ?_⟩
  rw [mem_blk]
  obtain ⟨a0, a1, b0, b1, c0, c1, d0, d1, g0, g1, k0, k1, o0, o1⟩ := idx_facts ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [o0]; show (i 0).val / 2000 * 2000 ≤ (i 0).val ∧ (i 0).val < (i 0).val / 2000 * 2000 + 2000; omega
  | ⟨1, _⟩ =>
    show win0_6.index _ (1 : Fin 2) * 64 ≤ (i 1).val ∧ (i 1).val < win0_6.index _ (1 : Fin 2) * 64 + 64
    rw [o1]; omega

/-- THE RESULT ARRAY after the region: the fused layers of the arrays the region finds. -/
theorem final (c : Dev nD) :
    (dat0 V c).arrAt 6 cfg0.N
      = fused (V c main_v27) (V c main_v15) (V c main_arg2) (V c main_v28) (V c main_arg6) (V c main_arg4) :=
  (dat0 V c).arrAt_eq_of_cover 6 _ (fun t _ => flushed_eq V c t) cover

end Cert.KernelIdeal.GcnRegion0

end
-- ==== Proof.Region1Value.lean ====
/-
  The second kernel region as one whole-array function.

  The region's grid has 25 points; point `t` works on rows `2000 t … 2000 t + 1999` of the `[50000, 64]` operand and of
  the result, and on the whole bias row. What point `t` writes back is therefore block `t` of ONE function of the
  arrays the region finds: each row's log-softmax after the bias is added. The 25 blocks tile the result array, so the
  array ends holding that function everywhere.
-/
import proofs.«129579_j9998683865528_2_alg».proof.Proof.Gen.KernelIdeal.Frame
import proofs.«129579_j9998683865528_2_alg».proof.Proof.RegionPayloads
import proofs.«129579_j9998683865528_2_alg».proof.Proof.GcnSpec
import Idealize.ShloMosaic.Lib.Pipeline.Value
import Idealize.ShloMosaic.Lib.ValueIdx

set_option maxRecDepth 16384

open scoped BigOperators

noncomputable section

namespace Cert.KernelIdeal.GcnRegion1

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.GcnSpec

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block row `t`, block column 0; the bias row at
    block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Rows that agree entry by entry have the same log-softmax. -/
theorem lsr_congr (Z Z' : Fin 64 → EReal) (h : ∀ k, Z k = Z' k) (q : Fin 64) : logSoftmaxRow Z q = logSoftmaxRow Z' q := by
  rw [funext h]

set_option maxHeartbeats 4000000 in
/-- WHAT POINT `t` WRITES BACK is block `t` of the bias-and-log-softmax of the arrays the region finds. -/
theorem flushed_eq (c : Dev nD) (t : Fin cfg1.N) :
    (dat1 V c).flushed 2 t
      = ((cfg1.win 2).blk t).view.read (Elt Ideal) (biasLogSoftmax (V c main_v41) (V c main_v42)) := by
  show (cfg1.win 2).cut (grid1.coords t) ((dat1 V c).after 2 t) = _
  rw [after1_2]
  unfold out1_2
  rw [View.canon_unit_zero hz]
  simp only [View.ld_unit_zero (S := S2000x64) hz, View.ld_unit_zero (S := S1x64) hz]
  obtain ⟨e0, e1, e2, e3, e4, e5⟩ := idx_facts t
  have ht : t.val < 25 := by have := t.isLt; have hN : cfg1.N = 25 := N_1; omega
  funext j
  obtain ⟨p, q, rfl⟩ : ∃ (p : Fin 2000) (q : Fin 64), j = ix2 p q := ⟨j 0, j 1, eq_ix2 j⟩
  have hemb : ((cfg1.win 2).blk t).view.emb (ix2 p q) = ix2 (⟨t.val * 2000 + p.val, by omega⟩ : Fin 50000) q := by
    funext a; apply Fin.ext
    match a with
    | ⟨0, _⟩ => show win1_2.index t (0 : Fin 2) * 2000 + 1 * p.val = t.val * 2000 + p.val; omega
    | ⟨1, _⟩ => show win1_2.index t (1 : Fin 2) * 64 + 1 * q.val = q.val; omega
  have h0 : ∀ k : Fin 64, ((cfg1.win 0).blk t).view.emb (ix2 p k) = ix2 (⟨t.val * 2000 + p.val, by omega⟩ : Fin 50000) k := by
    intro k; funext a; apply Fin.ext
    match a with
    | ⟨0, _⟩ => show win1_0.index t (0 : Fin 2) * 2000 + 1 * p.val = t.val * 2000 + p.val; omega
    | ⟨1, _⟩ => show win1_0.index t (1 : Fin 2) * 64 + 1 * k.val = k.val; omega
  have h1 : ∀ k : Fin 64, ((cfg1.win 1).blk t).view.emb (ix2 (0 : Fin 1) k) = ix2 (0 : Fin 1) k := by
    intro k; funext a; apply Fin.ext
    match a with
    | ⟨0, _⟩ => show win1_1.index t (0 : Fin 2) * 1 + 1 * 0 = 0; omega
    | ⟨1, _⟩ => show win1_1.index t (1 : Fin 2) * 64 + 1 * k.val = k.val; omega
  refine (Cert.KernelIdeal.GcnPayload.k1_pay1_apply _ _ p q).trans ?_
  refine Eq.trans ?_ (congrArg (biasLogSoftmax (V c main_v41) (V c main_v42)) hemb).symm
  unfold biasLogSoftmax
  refine lsr_congr _ _ (fun k => ?_) q
  exact congrArg₂ (fun (a b : EReal) => a + b) (congrArg (V c main_v41) (h0 k)) (congrArg (V c main_v42) (h1 k))

/-- An index of the result array is in point `t`'s block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v43).slice (win1_2.rect t)).set ↔ _
  rw [View.set_slice_whole, Rect.mem_set_unit]
  exact Iff.rfl

/-- Every row lies in the block of the point numbered by its quotient by 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_2 _, ?_⟩
  rw [mem_blk]
  obtain ⟨e0, e1, e2, e3, e4, e5⟩ := idx_facts ⟨(i 0).val / 2000, by rw [hN]; omega⟩
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 64 ≤ (i 1).val ∧ (i 1).val < win1_2.index _ (1 : Fin 2) * 64 + 64
    rw [e5]; omega

/-- THE RESULT ARRAY after the region: the bias-and-log-softmax of the arrays the region finds. -/
theorem final (c : Dev nD) :
    (dat1 V c).arrAt 2 cfg1.N = biasLogSoftmax (V c main_v41) (V c main_v42) :=
  (dat1 V c).arrAt_eq_of_cover 2 _ (fun t _ => flushed_eq V c t) cover

end Cert.KernelIdeal.GcnRegion1

end
-- ==== Proof.KernelValue.lean ====
/-
  The idealized kernel's result as ONE function of its arguments.

  Walking the boundaries back from the return: the result buffer is the second region's output array, the
  bias-and-log-softmax of what that region finds; what it finds is the host stage between the regions applied to the first
  region's output array and the bias row; the first region's output array is the fused layers of what that region finds;
  and what it finds are the host's aggregated features, the node-weight column, the bias row and three arguments.
-/
import proofs.«129579_j9998683865528_2_alg».proof.Proof.KernelRun
import proofs.«129579_j9998683865528_2_alg».proof.Proof.KernelHost
import proofs.«129579_j9998683865528_2_alg».proof.Proof.Region0Value
import proofs.«129579_j9998683865528_2_alg».proof.Proof.Region1Value

set_option maxRecDepth 65536

noncomputable section

namespace Cert.KernelIdeal.GcnValue

open Cert.KernelIdeal Cert.KernelIdeal.Gen Cert.KernelIdeal.GcnHost
open Idealize.ShloMosaic Idealize.ShloMosaic.TcCoe Idealize.ShloMosaic.StableHlo
open Idealize.SL.Sem
open Cert.GcnSpec

variable (m : (ℓ : Loc nD τ sig) → Buf (Elt Ideal) ℓ) (ρ : Dev nD → PrngReg)

/-- The kernel's result function of the seven argument arrays. -/
def value (a0 : FVec Ideal S50000x128 .f32) (a1 : IVec S2x800000 32) (a2 : FVec Ideal S128x256 .f32) (a3 : FVec Ideal S256 .f32)
    (a4 : FVec Ideal S256x64 .f32) (a5 : FVec Ideal S64 .f32) (a6 : FVec Ideal S50000x256 .f32) : FVec Ideal S50000x64 .f32 :=
  biasLogSoftmax (agg2 (fused (aggx a0 a1) (dcol a1) a2 (shapeCast S1x256 a3 shapeCasts_S256_S1x256) a6 a4) a1)
    (shapeCast S1x64 a5 shapeCasts_S64_S1x64)

/-- The first region's output array, at that region's exit. -/
theorem exit0_v29 (c : Dev nD) :
    W4 m ρ c (Proc.devRef .tc main_v29)
      = fused (aggx (m ((c : Thread nD τ).loc main_arg0)) (m ((c : Thread nD τ).loc main_arg1)))
          (dcol (m ((c : Thread nD τ).loc main_arg1))) (m ((c : Thread nD τ).loc main_arg2))
          (shapeCast S1x256 (m ((c : Thread nD τ).loc main_arg3)) shapeCasts_S256_S1x256)
          (m ((c : Thread nD τ).loc main_arg6)) (m ((c : Thread nD τ).loc main_arg4)) := by
  refine ((W4_arr m ρ c 6).trans (Cert.KernelIdeal.GcnRegion0.final (V3 m ρ) c)).trans ?_
  rw [entry0_v27, entry0_v15, entry0_v28, (entry0_arg m ρ c).1, (entry0_arg m ρ c).2.1, (entry0_arg m ρ c).2.2]

/-- The node-weight column is an input of the first region: it leaves as it entered. -/
theorem exit0_v15 (c : Dev nD) :
    W4 m ρ c (Proc.devRef .tc main_v15) = dcol (m ((c : Thread nD τ).loc main_arg1)) :=
  ((W4_arr m ρ c 1).trans (((dat0 (V3 m ρ) c).arrAt_in 1 rfl _).trans (A_eq0 (V3 m ρ) c 1))).trans (entry0_v15 m ρ c)

/-- Buffers the first region does not touch leave as they entered. -/
theorem exit0_v3 (c : Dev nD) :
    W4 m ρ c (Proc.devRef .tc main_v3) = Cert.ReferenceIdeal.ReadP.val_main_v3 (F := Ideal) (m ((c : Thread nD τ).loc main_arg1)) :=
  (W4_of_ne m ρ c main_v3 (by decide)).trans (entry0_v3 m ρ c)
theorem exit0_v6 (c : Dev nD) :
    W4 m ρ c (Proc.devRef .tc main_v6) = Cert.ReferenceIdeal.ReadP.val_main_v6 (F := Ideal) (m ((c : Thread nD τ).loc main_arg1)) :=
  (W4_of_ne m ρ c main_v6 (by decide)).trans (entry0_v6 m ρ c)
theorem exit0_arg5 (c : Dev nD) :
    W4 m ρ c (Proc.devRef .tc main_arg5) = m ((c : Thread nD τ).loc main_arg5) :=
  (W4_of_ne m ρ c main_arg5 (by decide)).trans (entry0_arg5 m ρ c)

/-- The second region's row-blocked operand: the host stage between the regions, of the first region's output. -/
theorem entry1_v41 (c : Dev nD) :
    V5 m ρ c main_v41 = agg2 (W4 m ρ c (Proc.devRef .tc main_v29)) (m ((c : Thread nD τ).loc main_arg1)) := by
  refine ((mid_stretch (W4 m ρ c)).1).trans ?_
  rw [exit0_v3, exit0_v6, exit0_v15]
  rfl

/-- The second region's bias row. -/
theorem entry1_v42 (c : Dev nD) :
    V5 m ρ c main_v42 = shapeCast S1x64 (m ((c : Thread nD τ).loc main_arg5)) shapeCasts_S64_S1x64 := by
  refine ((mid_stretch (W4 m ρ c)).2).trans ?_
  rw [exit0_arg5]

/-- THE RESULT BUFFER at the last boundary is the kernel's result function of the launch arguments. -/
theorem result_value (c : Dev nD) :
    W6 m ρ c (Proc.devRef .tc main_v43)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine ((Cert.KernelIdeal.GcnRun.result_arr m ρ c).trans (Cert.KernelIdeal.GcnRegion1.final (V5 m ρ) c)).trans ?_
  rw [entry1_v41, entry1_v42, exit0_v29]
  rfl

end Cert.KernelIdeal.GcnValue

end
-- ==== Proof.LibRowGather.lean ====
/-
  Rows picked and rows accumulated through an integer index column.

  A gather whose start indices form a column `[E, 1]` and whose slices are whole rows reads, at `(e, c)`, the operand's
  row number `idx (e, 0)` — the word read as a signed integer and clamped into `[0, N - 1]` — at column `c`. An
  accumulating scatter with the same index column sends update row `e` to the operand row whose number is that signed
  integer, NOT clamped, and drops the row when the number is negative or at least `N`; so the result at `(v, c)` is
  the operand there plus the sum of the updates `(e, c)` over the edges `e` whose integer is exactly `v`. The same two
  readings hold for a flat operand `[N]` (no column coordinate). Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

variable {α : Type}

/-- A start index read as a signed integer and clamped into `[0, N - 1]`. -/
def clampRow (N : Nat) (hN : 0 < N) {w : Nat} (b : BitVec w) : Fin N :=
  ⟨min b.toInt.toNat (N - 1), by omega⟩

/-! ## Gathering whole rows of an `[N, C]` operand -/

/-- The dimension numbers of "row `idx (e, 0)` of the operand, whole": offset axis 1, collapsed axis 0, the start
    index names axis 0, the index vector is the column's unit axis. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, c)`: the operand at the clamped row and the same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show (1 : Fin 2) ∉ (rowGather N E C wf).startIndexMap from
        fun h => absurd (congrArg Fin.val (List.mem_singleton.mp h)) Nat.one_ne_zero)]
    have hof : (rowGather N E C wf).offCoord (ix2 e c) 1 = c.val := by
      unfold GatherDims.offCoord
      rw [dif_pos ((GatherDims.mem_sKept _ _).mpr
        ⟨fun h => absurd (congrArg Fin.val (List.mem_singleton.mp h)) Nat.one_ne_zero, List.not_mem_nil⟩)]
      rfl
    rw [hst, hof]
    omega

/-! ## Gathering entries of a flat `[N]` operand -/

/-- The dimension numbers of "entry `idx (e, 0)` of a flat operand". -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the operand at the clamped entry. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e) = x (ix1 (clampRow N hN (idx (ix2 e (0 : Fin 1))))) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndex

end
-- ==== Proof.LibRowScatter.lean ====
/-
  Rows accumulated through an integer index column.

  An accumulating scatter whose scatter indices form a column `[E, 1]` and whose update windows are whole rows sends
  update row `e` to the operand row whose number is `idx (e, 0)` read as a signed integer, NOT clamped, and drops the
  row when that number is negative or at least `N`. Over the extended reals the result at `(v, c)` is therefore the
  operand there plus the sum of the updates `(e, c)` over the edges `e` whose integer is exactly `v`. The same holds
  for a flat operand `[N]` with flat updates `[E]`. Stated for any extents `N`, `E`, `C`.
-/
import Idealize.ShloMosaic.Lib.ValueIdx
import Idealize.ShloMosaic.PureOps.Ideal.Laws

open scoped BigOperators

noncomputable section

namespace Cert.RowIndex

open Idealize.ShloMosaic Idealize.ShloMosaic.ValueIdx

/-! ## Rows of an `[N, C]` operand -/

/-- The dimension numbers of "update row `e` goes to operand row `idx (e, 0)`". -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window starts at the signed integer of the edge's index word. -/
theorem rowScatter_start0 : (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rowScatter_start1 : (rowScatter N E C wf).start (ix2 e c') idx 1 = 0 := by
  unfold ScatterDims.start
  rw [dif_neg (show (1 : Fin 2) ∉ (rowScatter N E C wf).scatterDimsToOperandDims from
    fun h => absurd (congrArg Fin.val (List.mem_singleton.mp h)) Nat.one_ne_zero)]

/-- The row axis is inserted: no window coordinate there. -/
theorem rowScatter_window0 : (rowScatter N E C wf).window (ix2 e c') 0 = 0 := by
  unfold ScatterDims.window
  rw [dif_neg (by simp [ScatterDims.sKept, Shape.kept])]

/-- The column axis carries the update's column. -/
theorem rowScatter_window1 : (rowScatter N E C wf).window (ix2 e c') 1 = c'.val := by
  unfold ScatterDims.window
  rw [dif_pos (by simp [ScatterDims.sKept, Shape.kept])]
  rfl

/-- WHERE AN UPDATE LANDS: update `(e, c')` lands on `(v, c)` exactly when the edge's signed integer is `v` and the
    columns agree. -/
theorem rowScatter_lands (v : Fin N) (c : Fin C) :
    (rowScatter N E C wf).resultIdx? (ix2 e c') idx = some (ix2 v c)
      ↔ (idx (ix2 e (0 : Fin 1))).toInt = (v.val : ℤ) ∧ c' = c := by
  have h0 := rowScatter_start0 wf idx e c'
  have h1 := rowScatter_start1 wf idx e c'
  have w0 := rowScatter_window0 wf e c'
  have w1 := rowScatter_window1 wf e c'
  unfold ScatterDims.resultIdx?
  split
  · rename_i h
    constructor
    · intro hs
      have hf := Option.some.inj hs
      have e0 := congrArg (fun f => (f 0).val) hf
      have e1 := congrArg (fun f => (f 1).val) hf
      simp only at e0 e1
      have hh0 := h 0
      rw [h0, w0] at e0 hh0
      rw [h1, w1] at e1
      refine ⟨?_, Fin.ext ?_⟩
      · change ((idx (ix2 e (0 : Fin 1))).toInt + ((0 : ℕ) : ℤ)).toNat = v.val at e0
        omega
      · change ((0 : ℤ) + (c'.val : ℤ)).toNat = c.val at e1
        omega
    · rintro ⟨hv, rfl⟩
      congr 1
      funext a
      refine Fin.ext ?_
      match a with
      | ⟨0, _⟩ =>
        show ((rowScatter N E C wf).start (ix2 e c') idx 0 + ((rowScatter N E C wf).window (ix2 e c') 0 : ℤ)).toNat = v.val
        rw [h0, w0, hv]; omega
      | ⟨1, _⟩ =>
        show ((rowScatter N E C wf).start (ix2 e c') idx 1 + ((rowScatter N E C wf).window (ix2 e c') 1 : ℤ)).toNat = c'.val
        rw [h1, w1]; omega
  · rename_i h
    constructor
    · intro hs; exact absurd hs (by simp)
    · rintro ⟨hv, rfl⟩
      exfalso
      apply h
      intro a
      match a with
      | ⟨0, _⟩ =>
        show 0 ≤ (rowScatter N E C wf).start (ix2 e c') idx 0 + ((rowScatter N E C wf).window (ix2 e c') 0 : ℤ)
          ∧ (rowScatter N E C wf).start (ix2 e c') idx 0 + ((rowScatter N E C wf).window (ix2 e c') 0 : ℤ) < (N : ℤ)
        rw [h0, w0, hv]; have := v.isLt; omega
      | ⟨1, _⟩ =>
        show 0 ≤ (rowScatter N E C wf).start (ix2 e c') idx 1 + ((rowScatter N E C wf).window (ix2 e c') 1 : ℤ)
          ∧ (rowScatter N E C wf).start (ix2 e c') idx 1 + ((rowScatter N E C wf).window (ix2 e c') 1 : ℤ) < (C : ℤ)
        rw [h1, w1]; have := c'.isLt; omega

end Rows

/-- THE ROW SCATTER-ADD AT `(v, c)`, over the extended reals: the operand's entry plus the updates `(e, c)` of the
    edges whose index word is the signed integer `v`. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd (rowScatter N E C wf) x idx upd (ix2 v c)
      = x (ix2 v c) + ∑ e ∈ Finset.univ.filter (fun e : Fin E => (idx (ix2 e (0 : Fin 1))).toInt = (v.val : ℤ)), upd (ix2 e c) := by
  unfold Ideal.hostScatterAdd
  congr 1
  rw [Finset.sum_filter, Finset.sum_filter, sum_idx2]
  refine Finset.sum_congr rfl fun e _ => ?_
  simp only [rowScatter_lands wf idx e _ v c]
  by_cases hq : (idx (ix2 e (0 : Fin 1))).toInt = (v.val : ℤ)
  · simp [hq]
  · simp [hq]

/-- The same, for any record that IS those dimension numbers (a program's own record, by unfolding its definition):
    stated so that the scatter in a goal is matched as it is written and never unfolded. -/
theorem scatterAdd_rows_apply_of {N E C w : Nat} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : (⟨2, ![N, C]⟩ : Shape).Idx → EReal) (idx : IVec ⟨2, ![E, 1]⟩ w) (upd : (⟨2, ![E, C]⟩ : Shape).Idx → EReal)
    (v : Fin N) (c : Fin C) :
    Ideal.hostScatterAdd r x idx upd (ix2 v c)
      = x (ix2 v c) + ∑ e ∈ Finset.univ.filter (fun e : Fin E => (idx (ix2 e (0 : Fin 1))).toInt = (v.val : ℤ)), upd (ix2 e c) := by
  subst hr
  exact scatterAdd_rows_apply wf x idx upd v c

/-- The same at the exact values, stated of the host operation itself (so that a goal's scatter is matched as written). -/
theorem host_scatterAdd_rows_apply {N E C w : Nat} {φ : FTy} (wf : ScatterDims.WF ⟨2, ![N, C]⟩ ⟨2, ![E, 1]⟩ ⟨2, ![E, C]⟩ [1] [0] [0] 1)
    (r : ScatterDims ⟨2, ![N, C]⟩ ⟨2, ![E, 1]⟩ ⟨2, ![E, C]⟩) (hr : r = rowScatter N E C wf)
    (x : FVec Ideal ⟨2, ![N, C]⟩ φ) (idx : IVec ⟨2, ![E, 1]⟩ w) (upd : FVec Ideal ⟨2, ![E, C]⟩ φ) (v : Fin N) (c : Fin C) :
    Host.scatterAdd r x idx upd (ix2 v c)
      = (x (ix2 v c) : EReal) + ∑ e ∈ Finset.univ.filter (fun e : Fin E => (idx (ix2 e (0 : Fin 1))).toInt = (v.val : ℤ)), (upd (ix2 e c) : EReal) :=
  scatterAdd_rows_apply_of wf r hr x idx upd v c

/-! ## Entries of a flat `[N]` operand -/

/-- The dimension numbers of "update `e` goes to operand entry `idx (e, 0)`". -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Flat
variable {N E w : Nat} (wf : ScatterDims.WF ⟨1, ![N]⟩ ⟨2, ![E, 1]⟩ ⟨1, ![E]⟩ [] [0] [0] 1)
  (idx : IVec ⟨2, ![E, 1]⟩ w) (e : Fin E)

theorem flatScatter_start0 : (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatter N E wf).window (ix1 e) 0 = 0 := by
  unfold ScatterDims.window
  rw [dif_neg (by simp [ScatterDims.sKept, Shape.kept])]

/-- Update `e` lands on entry `v` exactly when the edge's signed integer is `v`. -/
theorem flatScatter_lands (v : Fin N) :
    (flatScatter N E wf).resultIdx? (ix1 e) idx = some (ix1 v) ↔ (idx (ix2 e (0 : Fin 1))).toInt = (v.val : ℤ) := by
  have h0 := flatScatter_start0 wf idx e
  have w0 := flatScatter_window0 wf e
  unfold ScatterDims.resultIdx?
  split
  · rename_i h
    constructor
    · intro hs
      have hf := Option.some.inj hs
      have e0 := congrArg (fun f => (f 0).val) hf
      simp only at e0
      have hh0 := h 0
      rw [h0, w0] at e0 hh0
      change ((idx (ix2 e (0 : Fin 1))).toInt + ((0 : ℕ) : ℤ)).toNat = v.val at e0
      omega
    · intro hv
      congr 1
      funext a
      obtain rfl : a = 0 := Subsingleton.elim _ _
      refine Fin.ext ?_
      show ((flatScatter N E wf).start (ix1 e) idx 0 + ((flatScatter N E wf).window (ix1 e) 0 : ℤ)).toNat = v.val
      rw [h0, w0, hv]; omega
  · rename_i h
    constructor
    · intro hs; exact absurd hs (by simp)
    · intro hv
      exfalso
      apply h
      intro a
      obtain rfl : a = 0 := Subsingleton.elim _ _
      show 0 ≤ (flatScatter N E wf).start (ix1 e) idx 0 + ((flatScatter N E wf).window (ix1 e) 0 : ℤ)
        ∧ (flatScatter N E wf).start (ix1 e) idx 0 + ((flatScatter N E wf).window (ix1 e) 0 : ℤ) < (N : ℤ)
      rw [h0, w0, hv]; have := v.isLt; omega

end Flat

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE FLAT SCATTER-ADD AT `v`, over the extended reals. -/
theorem scatterAdd_flat_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (v : Fin N) :
    Ideal.hostScatterAdd (flatScatter N E wf) x idx upd (ix1 v)
      = x (ix1 v) + ∑ e ∈ Finset.univ.filter (fun e : Fin E => (idx (ix2 e (0 : Fin 1))).toInt = (v.val : ℤ)), upd (ix1 e) := by
  unfold Ideal.hostScatterAdd
  congr 1
  rw [Finset.sum_filter, Finset.sum_filter, sum_idx1]
  refine Finset.sum_congr rfl fun e _ => ?_
  simp only [flatScatter_lands wf idx e v]

/-- The same, for any record that IS those dimension numbers. -/
theorem scatterAdd_flat_apply_of {N E w : Nat} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : (⟨1, ![N]⟩ : Shape).Idx → EReal) (idx : IVec ⟨2, ![E, 1]⟩ w) (upd : (⟨1, ![E]⟩ : Shape).Idx → EReal) (v : Fin N) :
    Ideal.hostScatterAdd r x idx upd (ix1 v)
      = x (ix1 v) + ∑ e ∈ Finset.univ.filter (fun e : Fin E => (idx (ix2 e (0 : Fin 1))).toInt = (v.val : ℤ)), upd (ix1 e) := by
  subst hr
  exact scatterAdd_flat_apply wf x idx upd v

/-- The same at the exact values, stated of the host operation itself. -/
theorem host_scatterAdd_flat_apply {N E w : Nat} {φ : FTy} (wf : ScatterDims.WF ⟨1, ![N]⟩ ⟨2, ![E, 1]⟩ ⟨1, ![E]⟩ [] [0] [0] 1)
    (r : ScatterDims ⟨1, ![N]⟩ ⟨2, ![E, 1]⟩ ⟨1, ![E]⟩) (hr : r = flatScatter N E wf)
    (x : FVec Ideal ⟨1, ![N]⟩ φ) (idx : IVec ⟨2, ![E, 1]⟩ w) (upd : FVec Ideal ⟨1, ![E]⟩ φ) (v : Fin N) :
    Host.scatterAdd r x idx upd (ix1 v)
      = (x (ix1 v) : EReal) + ∑ e ∈ Finset.univ.filter (fun e : Fin E => (idx (ix2 e (0 : Fin 1))).toInt = (v.val : ℤ)), (upd (ix1 e) : EReal) :=
  scatterAdd_flat_apply_of wf r hr x idx upd v

end Cert.RowIndex

end
-- ==== Proof.LibRealEdgeSums.lean ====
/-
  The two rearrangements behind a normalised graph convolution, over the extended reals.

  Nodes `v`, edges `e`; every edge has a source row `s e`; `In v` is the set of edges arriving at `v`, and `g e` names
  the arrival node again (`g e = v` for `e ∈ In v`). With a per-node weight `d`:

  * scaling the rows before summing over the arriving edges, scaling the sum by `d v` and THEN multiplying by a matrix
    `W` gives the same as multiplying each source row by `W` first and weighting each edge by `d (s e) * d (g e)`;
  * summing rows already weighted by `d (s e)` and scaling the sum by `d v` gives the same as weighting each edge by
    `d (s e) * d (g e)`.

  Both are distributivity and an exchange of two finite sums. On the extended reals distributivity fails at infinities,
  so the laws are stated for entries that are real numbers and proved in ℝ; the closure lemmas `IsReal.*` carry "is a
  real number" through sums, products and maxima.
-/
import Idealize.ShloMosaic.PureOps.Ideal.Laws
import Mathlib.Algebra.BigOperators.Group.Finset.Sigma
import Mathlib.Tactic.Ring

open scoped BigOperators

namespace Cert.GcnAlgebra

/-- An extended real that is a real number. -/
def IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨r, rfl⟩ := ha; obtain ⟨t, rfl⟩ := hb; exact ⟨r + t, (EReal.coe_add r t).symm⟩
theorem IsReal.mul {a b : EReal} (ha : IsReal a) (hb : IsReal b) : IsReal (a * b) := by
  obtain ⟨r, rfl⟩ := ha; obtain ⟨t, rfl⟩ := hb; exact ⟨r * t, (EReal.coe_mul r t).symm⟩
theorem IsReal.max {a b : EReal} (ha : IsReal a) (hb : IsReal b) : IsReal (max a b) := by
  obtain ⟨r, rfl⟩ := ha; obtain ⟨t, rfl⟩ := hb; exact ⟨Max.max r t, (EReal.coe_strictMono.monotone.map_max).symm⟩

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} (S : Finset ι) (f : ι → EReal) (h : ∀ i ∈ S, IsReal (f i)) : IsReal (∑ i ∈ S, f i) := by
  classical
  induction S using Finset.induction_on with
  | empty => simpa using IsReal.zero
  | insert a S ha ih =>
    rw [Finset.sum_insert ha]
    exact (h a (Finset.mem_insert_self a S)).add (ih fun i hi => h i (Finset.mem_insert_of_mem hi))

section Laws
variable {N E A B : ℕ} (s g : Fin E → Fin N) (In : Fin N → Finset (Fin E))
  (hg : ∀ v, ∀ e ∈ In v, g e = v) (d : Fin N → EReal) (hd : ∀ v, IsReal (d v))

include hg hd

/-- AGGREGATE THEN TRANSFORM is TRANSFORM THEN AGGREGATE: for real entries, the pre-scaled rows summed over the
    arriving edges, scaled by `d v` and multiplied by `W`, are the edge sum of the transformed source rows weighted by
    `d (s e) * d (g e)`. -/
theorem aggregate_then_transform (x : Fin N → Fin A → EReal) (hx : ∀ v f, IsReal (x v f))
    (W : Fin A → Fin B → EReal) (hW : ∀ f j, IsReal (W f j)) (v : Fin N) (j : Fin B) :
    ∑ f, ((∑ e ∈ In v, x (s e) f * d (s e)) * d v) * W f j
      = ∑ e ∈ In v, (∑ f, x (s e) f * W f j) * (d (s e) * d (g e)) := by
  choose xr hxr using hx
  choose Wr hWr using hW
  choose dr hdr using hd
  have hR : (∑ f, ((∑ e ∈ In v, xr (s e) f * dr (s e)) * dr v) * Wr f j : ℝ)
      = ∑ e ∈ In v, (∑ f, xr (s e) f * Wr f j) * (dr (s e) * dr v) := by
    simp only [Finset.sum_mul]
    rw [Finset.sum_comm]
    refine Finset.sum_congr rfl fun e _ => Finset.sum_congr rfl fun f _ => ?_
    ring
  have hL : ∑ f, ((∑ e ∈ In v, x (s e) f * d (s e)) * d v) * W f j
      = ((∑ f, ((∑ e ∈ In v, xr (s e) f * dr (s e)) * dr v) * Wr f j : ℝ) : EReal) := by
    simp only [hxr, hWr, hdr, coe_sum, EReal.coe_mul]
  have hRR : ∑ e ∈ In v, (∑ f, x (s e) f * W f j) * (d (s e) * d (g e))
      = ((∑ e ∈ In v, (∑ f, xr (s e) f * Wr f j) * (dr (s e) * dr v) : ℝ) : EReal) := by
    rw [coe_sum]
    refine Finset.sum_congr rfl fun e he => ?_
    rw [hg v e he]
    simp only [hxr, hWr, hdr, coe_sum, EReal.coe_mul]
  rw [hL, hRR, hR]

/-- SCALE AFTER THE SUM is WEIGHT EACH EDGE: for real entries, rows weighted by `d (s e)`, summed over the arriving
    edges and scaled by `d v`, are the edge sum weighted by `d (s e) * d (g e)`. -/
theorem scale_after_sum (T : Fin N → EReal) (hT : ∀ u, IsReal (T u)) (v : Fin N) :
    (∑ e ∈ In v, T (s e) * d (s e)) * d v = ∑ e ∈ In v, T (s e) * (d (s e) * d (g e)) := by
  choose Tr hTr using hT
  choose dr hdr using hd
  have hR : ((∑ e ∈ In v, Tr (s e) * dr (s e)) * dr v : ℝ) = ∑ e ∈ In v, Tr (s e) * (dr (s e) * dr v) := by
    rw [Finset.sum_mul]
    exact Finset.sum_congr rfl fun e _ => by ring
  have hL : (∑ e ∈ In v, T (s e) * d (s e)) * d v = (((∑ e ∈ In v, Tr (s e) * dr (s e)) * dr v : ℝ) : EReal) := by
    simp only [hTr, hdr, coe_sum, EReal.coe_mul]
  have hRR : ∑ e ∈ In v, T (s e) * (d (s e) * d (g e)) = ((∑ e ∈ In v, Tr (s e) * (dr (s e) * dr v) : ℝ) : EReal) := by
    rw [coe_sum]
    refine Finset.sum_congr rfl fun e he => ?_
    rw [hg v e he]
    simp only [hTr, hdr, EReal.coe_mul]
  rw [hL, hRR, hR]

end Laws

end Cert.GcnAlgebra
-- ==== Proof.GcnGraph.lean ====
/-
  The graph both programs read off the edge list, and its two facts.

  From the edge list both programs build a source and a destination index vector over the 850000 edges (the 800000
  listed edges, then one self-loop per node). An index is used in two ways: a gather reads it as a signed integer,
  wraps a negative one by +50000 and clamps into `[0, 49999]` (the source row `s e`, the arrival node `g e`); the
  accumulating scatter reads the destination as a signed integer and drops the edge unless it is a node number — so the
  edges arriving at `v` are those whose destination integer is exactly `v` (`In v`). For such an edge the wrapped,
  clamped destination is `v` again. The in-degree is a sum of ones over `In v`, a real number, and the node weight — its
  inverse square root where positive, zero elsewhere — is a real number too.
-/
import proofs.«129579_j9998683865528_2_alg».proof.Proof.RefReadPatched
import proofs.«129579_j9998683865528_2_alg».proof.Proof.LibRowGather
import proofs.«129579_j9998683865528_2_alg».proof.Proof.LibRowScatter
import proofs.«129579_j9998683865528_2_alg».proof.Proof.LibRealEdgeSums

open scoped BigOperators

noncomputable section

namespace Cert.GcnGraph

open Cert.ReferenceIdeal Cert.ReferenceIdeal.ReadP
open Idealize.ShloMosaic Idealize.ShloMosaic.ValueIdx Cert.RowIndex Cert.GcnAlgebra

variable (a1 : IVec S2x800000 32)

/-- Edge `e`'s destination index word. -/
def dstI (e : Fin 850000) : BitVec 32 := val_main_v6 (F := Ideal) a1 (ix1 e)
/-- Edge `e`'s source index word. -/
def srcI (e : Fin 850000) : BitVec 32 := val_main_v3 (F := Ideal) a1 (ix1 e)
/-- A negative index wraps around by the number of nodes. -/
def wrap (b : BitVec 32) : BitVec 32 := Scalar.select (IntOp.cmpi .slt b 0#32) (IntOp.addi b 50000#32) b
/-- The edges arriving at node `v`. -/
def In (v : Fin 50000) : Finset (Fin 850000) := Finset.univ.filter fun e => (dstI a1 e).toInt = (v.val : ℤ)
/-- The row a gather along the sources reads for edge `e`. -/
def s (e : Fin 850000) : Fin 50000 := clampRow 50000 (by decide) (wrap (srcI a1 e))
/-- The row a gather along the destinations reads for edge `e`. -/
def g (e : Fin 850000) : Fin 50000 := clampRow 50000 (by decide) (wrap (dstI a1 e))
/-- Node `v`'s weight. -/
def d (v : Fin 50000) : EReal := val_main_v14 (F := Ideal) a1 (ix1 v)

/-- The destination column read at edge `e`. -/
theorem dstB_apply (e : Fin 850000) : val_main_v9 (F := Ideal) a1 (ix2 e (0 : Fin 1)) = dstI a1 e :=
  (val_main_v9_apply a1 _).trans (congrArg (val_main_v6 (F := Ideal) a1)
    (funext fun a => Fin.ext (by match a with | ⟨0, _⟩ => rfl)))

/-- The wrapped source column read at edge `e`. -/
theorem nsrcB_apply (e : Fin 850000) : val_main_v21 (F := Ideal) a1 (ix2 e (0 : Fin 1)) = wrap (srcI a1 e) := by
  refine (val_main_v21_apply a1 _).trans ?_
  have hi : idx_main_v21 (ix2 e (0 : Fin 1)) = ix1 e := funext fun a => Fin.ext (by match a with | ⟨0, _⟩ => rfl)
  rw [hi, val_main_v20_apply, val_main_v17_apply, val_main_v19_apply, val_main_v16_apply, val_main_v18_apply,
    val_main_c_apply, val_main_c_3_apply]
  rfl

/-- The wrapped destination column read at edge `e`. -/
theorem ndstB_apply (e : Fin 850000) : val_main_v28 (F := Ideal) a1 (ix2 e (0 : Fin 1)) = wrap (dstI a1 e) := by
  refine (val_main_v28_apply a1 _).trans ?_
  have hi : idx_main_v28 (ix2 e (0 : Fin 1)) = ix1 e := funext fun a => Fin.ext (by match a with | ⟨0, _⟩ => rfl)
  rw [hi, val_main_v27_apply, val_main_v24_apply, val_main_v26_apply, val_main_v23_apply, val_main_v25_apply,
    val_main_c_4_apply, val_main_c_5_apply]
  rfl

/-- The edges a scatter along the destination column sends to node `v` are the edges arriving at `v`. -/
theorem filter_dst (v : Fin 50000) :
    Finset.univ.filter (fun e : Fin 850000 => (val_main_v9 (F := Ideal) a1 (ix2 e (0 : Fin 1))).toInt = (v.val : ℤ)) = In a1 v := by
  unfold In
  exact Finset.filter_congr fun e _ => by rw [dstB_apply]

/-- AN ARRIVING EDGE NAMES ITS NODE: for an edge whose destination integer is the node number `v`, wrapping does
    nothing and clamping does nothing. -/
theorem g_of_mem (v : Fin 50000) (e : Fin 850000) (he : e ∈ In a1 v) : g a1 e = v := by
  have hv : (dstI a1 e).toInt = (v.val : ℤ) := (Finset.mem_filter.mp he).2
  have hlt : v.val < 50000 := v.isLt
  have hs : (dstI a1 e).slt 0#32 = false := by
    rw [BitVec.slt, hv]; simp
  have hw : wrap (dstI a1 e) = dstI a1 e := by
    unfold wrap IntOp.cmpi
    simp only [hs]
    rfl
  unfold g clampRow
  apply Fin.ext
  show min (wrap (dstI a1 e)).toInt.toNat (50000 - 1) = v.val
  rw [hw, hv]
  omega

/-- The float word `0x3F800000` is a finite number: its exponent field is neither all zeros nor all ones. -/
theorem one_word_real : IsReal (Ideal.ofBits .f32 0x3F800000#32) := by
  show IsReal (Ideal.ieee 8 23 (0x3F800000#32 : BitVec 32))
  unfold Ideal.ieee
  simp only
  rw [if_neg (by decide), if_neg (by decide)]
  exact ⟨_, rfl⟩

/-- An accumulating scatter of real updates into real entries has real entries. -/
theorem host_scatterAdd_isReal {s si su : Shape} {w : Nat} {φ : FTy} (r : ScatterDims s si su) (x : FVec Ideal s φ) (idx : IVec si w)
    (upd : FVec Ideal su φ) (hx : ∀ i, IsReal (x i)) (hu : ∀ j, IsReal (upd j)) (i : s.Idx) :
    IsReal (Host.scatterAdd r x idx upd i) := by
  show IsReal (x i + ∑ j ∈ Finset.univ.filter (fun j => r.resultIdx? j idx = some i), upd j)
  exact IsReal.add (hx i) (IsReal.sum _ _ fun j _ => hu j)

/-- The in-degree of a node is a real number: a zero entry plus a finite sum of ones. -/
theorem deg_real (v : Fin 50000) : IsReal (val_main_v10 (F := Ideal) a1 (ix1 v)) :=
  host_scatterAdd_isReal scatter_S50000_S850000x1_S850000_n_0_0_1 (val_main_v8 (F := Ideal)) (val_main_v9 (F := Ideal) a1) (val_main_v7 (F := Ideal))
    (fun i => by rw [val_main_v8_apply, val_main_cst_0_apply]; exact ⟨0, Ideal.ofBits_zero_f32⟩)
    (fun j => by rw [val_main_v7_apply, val_main_cst_apply]; exact one_word_real) (ix1 v)

/-- THE NODE WEIGHTS ARE REAL: the inverse square root of a positive real degree, or the zero word. -/
theorem d_real (v : Fin 50000) : IsReal (d a1 v) := by
  unfold d
  rw [val_main_v14_apply]
  by_cases hb : val_main_v12 (F := Ideal) a1 (ix1 v) = 1#1
  · rw [hb, ValueIdx.select_one, val_main_v13_apply]
    obtain ⟨r, hr⟩ := deg_real a1 v
    rw [val_main_v12_apply, val_main_v11_apply, val_main_cst_1_apply, hr] at hb
    have hpos : (0 : ℝ) < r := by
      by_contra hn
      rw [Ideal.cmpf_def] at hb
      simp [Ideal.cmp, Ideal.ofBits_zero_f32, hn, BitVec.ofBool] at hb
    rw [hr, Ideal.hostUnary_rsqrt_def]
    show IsReal (if r < 0 then ⊥ else if r = 0 then ⊤ else (((Real.sqrt r)⁻¹ : ℝ) : EReal))
    rw [if_neg (by linarith), if_neg (by linarith)]
    exact ⟨_, rfl⟩
  · rw [ValueIdx.eq_zero_of_ne_one hb, ValueIdx.select_zero, val_main_call0_v1_apply, val_main_call0_v0_apply,
      val_main_cst_2_apply]
    exact ⟨0, Ideal.ofBits_zero_f32⟩

end Cert.GcnGraph

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.KernelReading.lean ====
/-
  The idealized kernel's host stages, read entry by entry over the extended reals.

  The node-weight column at row `v` is `d v`. The aggregated features at `(u, f)` are the sum over the edges arriving at
  `u` of the source row's feature times the source's weight. The host stage between the regions, applied to a region
  result `H`, is at `(v, k)` the sum over the edges arriving at `v` of `H` at the source row, times `d v`.
-/
import proofs.«129579_j9998683865528_2_alg».proof.Proof.KernelHost
import proofs.«129579_j9998683865528_2_alg».proof.Proof.GcnGraph
import proofs.«129579_j9998683865528_2_alg».proof.Proof.LibBroadcastInDim

open scoped BigOperators

noncomputable section

namespace Cert.KernelIdeal.GcnKernelRead

open Cert.KernelIdeal Cert.KernelIdeal.Gen Cert.KernelIdeal.GcnHost
open Idealize.ShloMosaic Idealize.ShloMosaic.ValueIdx Cert.RowIndex Cert.GcnAlgebra Cert.GcnGraph

variable (a0 : FVec Ideal S50000x128 .f32) (a1 : IVec S2x800000 32)

/-- The node-weight column at row `v`. -/
theorem dcol_apply (v : Fin 50000) : dcol a1 (ix2 v (0 : Fin 1)) = d a1 v := by
  unfold dcol colOf d
  exact Cert.BroadcastInDim.column_apply _ _ v 0

/-- The destination column, spelled out, read at edge `e`. -/
theorem dstcol_apply (e : Fin 850000) :
    broadcastInDim S850000x1 ![0] bcast_S850000_S850000x1_0 (Cert.ReferenceIdeal.ReadP.val_main_v6 (F := Ideal) a1) (ix2 e (0 : Fin 1))
      = dstI a1 e :=
  Cert.BroadcastInDim.column_apply _ _ e 0

/-- The edges the spelled-out destination column sends to node `v`. -/
theorem filter_dstcol (v : Fin 50000) :
    Finset.univ.filter (fun e : Fin 850000 =>
      (broadcastInDim S850000x1 ![0] bcast_S850000_S850000x1_0 (Cert.ReferenceIdeal.ReadP.val_main_v6 (F := Ideal) a1) (ix2 e (0 : Fin 1))).toInt
        = (v.val : ℤ)) = In a1 v := by
  unfold In
  exact Finset.filter_congr fun e _ => by rw [dstcol_apply]

/-- The wrapped source column, spelled out, read at edge `e`. -/
theorem wrapCol_apply (e : Fin 850000) :
    wrapCol (Cert.ReferenceIdeal.ReadP.val_main_v3 (F := Ideal) a1) (ix2 e (0 : Fin 1)) = wrap (srcI a1 e) := by
  unfold wrapCol
  refine (Cert.BroadcastInDim.column_apply _ _ e 0).trans ?_
  show Scalar.select (IntOp.cmpi .slt (Cert.ReferenceIdeal.ReadP.val_main_v3 (F := Ideal) a1 (ix1 e))
        (broadcastInDim S850000 ![] bcast_S_S850000 (constantI S_ 32 0#32) (ix1 e)))
      (IntOp.addi (Cert.ReferenceIdeal.ReadP.val_main_v3 (F := Ideal) a1 (ix1 e))
        (broadcastInDim S850000 ![] bcast_S_S850000 (constantI S_ 32 50000#32) (ix1 e)))
      (Cert.ReferenceIdeal.ReadP.val_main_v3 (F := Ideal) a1 (ix1 e)) = _
  rw [Cert.BroadcastInDim.scalar_apply, Cert.BroadcastInDim.scalar_apply]
  rfl

/-- THE AGGREGATED FEATURES at `(u, f)`. -/
theorem aggx_apply (u : Fin 50000) (f : Fin 128) :
    aggx a0 a1 (ix2 u f) = ∑ e ∈ In a1 u, a0 (ix2 (s a1 e) f) * d a1 (s a1 e) := by
  unfold aggx aggxOf
  refine (host_scatterAdd_rows_apply scatter_S50000x128_S850000x1_S850000x128_1_0_0_1.wf _ rfl _ _ _ u f).trans ?_
  rw [Cert.BroadcastInDim.scalar_apply, filter_dstcol]
  show Ideal.ofBits .f32 0x00000000#32 + _ = _
  rw [Ideal.ofBits_zero_f32, zero_add]
  refine Finset.sum_congr rfl fun e _ => ?_
  refine (gather_rows_apply (by decide) gather_S50000x128_S850000x1_S850000x128_1_0_n_n_0_1_1128.wf _ _ e f).trans ?_
  rw [wrapCol_apply]
  refine (mulf_apply _ _ _).trans ?_
  refine congrArg₂ (fun (x y : EReal) => x * y) rfl ?_
  refine (Cert.BroadcastInDim.rows_apply _ _ _ f).trans ?_
  exact dcol_apply a1 (s a1 e)

/-- THE HOST STAGE BETWEEN THE REGIONS at `(v, k)`. -/
theorem agg2_apply (H : FVec Ideal S50000x64 .f32) (v : Fin 50000) (k : Fin 64) :
    agg2 H a1 (ix2 v k) = (∑ e ∈ In a1 v, H (ix2 (s a1 e) k)) * d a1 v := by
  unfold agg2 agg2Of
  refine (mulf_apply _ _ _).trans ?_
  rw [Cert.BroadcastInDim.rows_apply, dcol_apply]
  refine congrArg (· * d a1 v) ?_
  refine (host_scatterAdd_rows_apply scatter_S50000x64_S850000x1_S850000x64_1_0_0_1.wf _ rfl _ _ _ v k).trans ?_
  rw [Cert.BroadcastInDim.scalar_apply, filter_dstcol]
  show Ideal.ofBits .f32 0x00000000#32 + _ = _
  rw [Ideal.ofBits_zero_f32, zero_add]
  refine Finset.sum_congr rfl fun e _ => ?_
  refine (gather_rows_apply (by decide) gather_S50000x64_S850000x1_S850000x64_1_0_n_n_0_1_164.wf _ _ e k).trans ?_
  rw [wrapCol_apply]
  rfl

end Cert.KernelIdeal.GcnKernelRead

end
-- ==== Proof.RefReading.lean ====
/-
  The reference program's two graph-convolution layers, read entry by entry over the extended reals.

  With `s`, `g`, `In`, `d` the graph notions of the edge list: the first layer's pre-activation at node `v`, unit `j` is
  the sum over the edges arriving at `v` of the transformed source row `(x W₁)(s e, j)` weighted by `d (s e) · d (g e)`;
  adding the bias, rectifying and masking gives the hidden activation; the second layer repeats the pattern on the
  hidden activation with `W₂`, and its bias gives the logits.
-/
import proofs.«129579_j9998683865528_2_alg».proof.Proof.RefReadPatched
import proofs.«129579_j9998683865528_2_alg».proof.Proof.GcnGraph
import proofs.«129579_j9998683865528_2_alg».proof.Proof.LibDotSums
import proofs.«129579_j9998683865528_2_alg».proof.Proof.GcnSpec

open scoped BigOperators

noncomputable section

namespace Cert.GcnRef

open Cert.ReferenceIdeal Cert.ReferenceIdeal.ReadP
open Idealize.ShloMosaic Idealize.ShloMosaic.ValueIdx Cert.RowIndex Cert.GcnAlgebra Cert.GcnGraph

variable (a0 : FVec Ideal S50000x128 .f32) (a1 : IVec S2x800000 32) (a2 : FVec Ideal S128x256 .f32)
  (a3 : FVec Ideal S256 .f32) (a4 : FVec Ideal S256x64 .f32) (a5 : FVec Ideal S64 .f32) (a6 : FVec Ideal S50000x256 .f32)

/-- The weight gathered along the sources. -/
theorem d_src (e : Fin 850000) : val_main_v22 (F := Ideal) a1 (ix1 e) = d a1 (s a1 e) := by
  refine (gather_flat_apply (by decide) gather_S50000_S850000x1_S850000_n_0_n_n_0_1_1.wf _ _ e).trans ?_
  unfold d s
  rw [nsrcB_apply]

/-- The weight gathered along the destinations. -/
theorem d_dst (e : Fin 850000) : val_main_v29 (F := Ideal) a1 (ix1 e) = d a1 (g a1 e) := by
  refine (gather_flat_apply (by decide) gather_S50000_S850000x1_S850000_n_0_n_n_0_1_1.wf _ _ e).trans ?_
  unfold d g
  rw [ndstB_apply]

/-- The edge weight `d (s e) · d (g e)`, as a column repeated along a row of any width, read at `(e, ·)`. -/
theorem edge_weight (e : Fin 850000) : val_main_v30 (F := Ideal) a1 (ix1 e) = d a1 (s a1 e) * d a1 (g a1 e) := by
  rw [val_main_v30_apply, d_src, d_dst]; rfl

/-- The transformed features `x W₁` at `(u, j)`. -/
theorem xw (u : Fin 50000) (j : Fin 256) :
    val_main_v15 (F := Ideal) a0 a2 (ix2 u j) = ∑ f : Fin 128, a0 (ix2 u f) * a2 (ix2 f j) :=
  Cert.DotSums.dotGeneral_ix2 dot_S50000x128_S128x256_S50000x256_1_0_0_1_n_n none .single rfl rfl rfl rfl rfl rfl rfl rfl a0 a2 u j

/-- The first layer's message of edge `e` at unit `j`. -/
theorem edge1 (e : Fin 850000) (j : Fin 256) :
    val_main_v40 (F := Ideal) a0 a1 a2 (ix2 e j)
      = (∑ f : Fin 128, a0 (ix2 (s a1 e) f) * a2 (ix2 f j)) * (d a1 (s a1 e) * d a1 (g a1 e)) := by
  rw [val_main_v40_apply, Ideal.mulf_def]
  refine congrArg₂ (· * ·) ?_ ?_
  · refine (gather_rows_apply (by decide) gather_S50000x256_S850000x1_S850000x256_1_0_n_n_0_1_1256.wf _ _ e j).trans ?_
    show val_main_v15 (F := Ideal) a0 a2 (ix2 (clampRow 50000 (by decide) (val_main_v21 (F := Ideal) a1 (ix2 e (0 : Fin 1)))) j) = _
    rw [nsrcB_apply]
    exact xw a0 a2 _ j
  · rw [val_main_v39_apply, val_main_v38_apply]
    have hi : idx_main_v38 (idx_main_v39 (ix2 e j)) = ix1 e := funext fun a => Fin.ext (by match a with | ⟨0, _⟩ => rfl)
    rw [hi]
    exact edge_weight a1 e

/-- THE FIRST LAYER's pre-activation at `(v, j)`: the sum over the arriving edges. -/
theorem layer1 (v : Fin 50000) (j : Fin 256) :
    val_main_v43 (F := Ideal) a0 a1 a2 (ix2 v j)
      = ∑ e ∈ In a1 v, (∑ f : Fin 128, a0 (ix2 (s a1 e) f) * a2 (ix2 f j)) * (d a1 (s a1 e) * d a1 (g a1 e)) := by
  unfold val_main_v43
  refine (host_scatterAdd_rows_apply scatter_S50000x256_S850000x1_S850000x256_1_0_0_1.wf _ rfl _ _ _ v j).trans ?_
  rw [val_main_v41_apply, val_main_cst_8_apply, Ideal.ofBits_def, Ideal.ofBits_zero_f32, zero_add]
  show ∑ e ∈ Finset.univ.filter (fun e : Fin 850000 => (val_main_v9 (F := Ideal) a1 (ix2 e (0 : Fin 1))).toInt = (v.val : ℤ)),
      val_main_v40 (F := Ideal) a0 a1 a2 (ix2 e j) = _
  rw [filter_dst]
  exact Finset.sum_congr rfl fun e _ => edge1 a0 a1 a2 e j

/-- The hidden activation at `(u, j)`: bias, rectifier, dropout mask. -/
theorem hidden (u : Fin 50000) (j : Fin 256) :
    val_main_v48 (F := Ideal) a0 a1 a2 a3 a6 (ix2 u j)
      = max (val_main_v43 (F := Ideal) a0 a1 a2 (ix2 u j) + a3 (ix1 j)) 0 * a6 (ix2 u j) := by
  rw [val_main_v48_apply, val_main_v47_apply, val_main_v46_apply, val_main_v45_apply, val_main_v44_apply,
    val_main_call1_v0_apply, val_main_call1_cst_apply]
  have hi : idx_main_v44 (idx_main_v45 (ix2 u j)) = ix1 j := funext fun a => Fin.ext (by match a with | ⟨0, _⟩ => rfl)
  rw [hi, Ideal.mulf_def, Ideal.maximumf_def, Ideal.addf_def, Ideal.ofBits_def, Ideal.ofBits_zero_f32]

/-- The second layer's transform of the hidden activation at `(u, k)`. -/
theorem hw (u : Fin 50000) (k : Fin 64) :
    val_main_v49 (F := Ideal) a0 a1 a2 a3 a4 a6 (ix2 u k)
      = ∑ j : Fin 256, val_main_v48 (F := Ideal) a0 a1 a2 a3 a6 (ix2 u j) * a4 (ix2 j k) :=
  Cert.DotSums.dotGeneral_ix2 dot_S50000x256_S256x64_S50000x64_1_0_0_1_n_n none .single rfl rfl rfl rfl rfl rfl rfl rfl _ a4 u k

/-- The second layer's message of edge `e` at class `k`. -/
theorem edge2 (e : Fin 850000) (k : Fin 64) :
    val_main_v74 (F := Ideal) a0 a1 a2 a3 a4 a6 (ix2 e k)
      = val_main_v49 (F := Ideal) a0 a1 a2 a3 a4 a6 (ix2 (s a1 e) k) * (d a1 (s a1 e) * d a1 (g a1 e)) := by
  rw [val_main_v74_apply, Ideal.mulf_def]
  refine congrArg₂ (· * ·) ?_ ?_
  · refine (gather_rows_apply (by decide) gather_S50000x64_S850000x1_S850000x64_1_0_n_n_0_1_164.wf _ _ e k).trans ?_
    show val_main_v49 (F := Ideal) a0 a1 a2 a3 a4 a6 (ix2 (clampRow 50000 (by decide) (val_main_v21 (F := Ideal) a1 (ix2 e (0 : Fin 1)))) k) = _
    rw [nsrcB_apply]
    rfl
  · rw [val_main_v73_apply, val_main_v72_apply]
    have hi : idx_main_v72 (idx_main_v73 (ix2 e k)) = ix1 e := funext fun a => Fin.ext (by match a with | ⟨0, _⟩ => rfl)
    rw [hi]
    exact edge_weight a1 e

/-- THE LOGITS at `(v, k)`: the second layer's sum over the arriving edges, plus its bias. -/
theorem logits (v : Fin 50000) (k : Fin 64) :
    val_main_v80 (F := Ideal) a0 a1 a2 a3 a4 a5 a6 (ix2 v k)
      = (∑ e ∈ In a1 v, val_main_v49 (F := Ideal) a0 a1 a2 a3 a4 a6 (ix2 (s a1 e) k) * (d a1 (s a1 e) * d a1 (g a1 e)))
        + a5 (ix1 k) := by
  rw [val_main_v80_apply, Ideal.addf_def]
  refine congrArg₂ (· + ·) ?_ ?_
  · unfold val_main_v77
    refine (host_scatterAdd_rows_apply scatter_S50000x64_S850000x1_S850000x64_1_0_0_1.wf _ rfl _ _ _ v k).trans ?_
    rw [val_main_v75_apply, val_main_cst_15_apply, Ideal.ofBits_def, Ideal.ofBits_zero_f32, zero_add]
    show ∑ e ∈ Finset.univ.filter (fun e : Fin 850000 => (val_main_v9 (F := Ideal) a1 (ix2 e (0 : Fin 1))).toInt = (v.val : ℤ)),
        val_main_v74 (F := Ideal) a0 a1 a2 a3 a4 a6 (ix2 e k) = _
    rw [filter_dst]
    exact Finset.sum_congr rfl fun e _ => edge2 a0 a1 a2 a3 a4 a6 e k
  · rw [val_main_v79_apply, val_main_v78_apply]
    exact congrArg a5 (funext fun a => Fin.ext (by match a with | ⟨0, _⟩ => rfl))

end Cert.GcnRef

end
-- ==== Proof.RefSoftmax.lean ====
/-
  The reference program's log-softmax, read entry by entry.

  The reference takes each row's maximum by a fold of `max` from −∞ (and once more against −∞, which changes
  nothing), subtracts it, exponentiates, sums the row from zero, takes the logarithm and subtracts that: at `(v, q)` this
  is the log-softmax of row `v` of the logits at entry `q`, in the very form the kernel's second region computes.
-/
import proofs.«129579_j9998683865528_2_alg».proof.Proof.RefReadPatched
import proofs.«129579_j9998683865528_2_alg».proof.Proof.GcnSpec
import Mathlib.Data.Finset.Fold

open scoped BigOperators

noncomputable section

namespace Cert.GcnRef

open Cert.ReferenceIdeal Cert.ReferenceIdeal.ReadP Cert.ReferenceIdeal.Gen
open Idealize.ShloMosaic Idealize.ShloMosaic.ValueIdx Cert.GcnSpec

variable (a0 : FVec Ideal S50000x128 .f32) (a1 : IVec S2x800000 32) (a2 : FVec Ideal S128x256 .f32)
  (a3 : FVec Ideal S256 .f32) (a4 : FVec Ideal S256x64 .f32) (a5 : FVec Ideal S64 .f32) (a6 : FVec Ideal S50000x256 .f32)

instance maximumf_comm : Std.Commutative (FloatOps.maximumf (F := Ideal) (φ := .f32)) := ⟨fun a b => max_comm a b⟩
instance maximumf_assoc : Std.Associative (FloatOps.maximumf (F := Ideal) (φ := .f32)) := ⟨fun a b c => max_assoc a b c⟩

/-- The index a reduction over axis 1 reads at coordinate `k` of row `v`. -/
theorem lift_row (h : S50000x64.Reduces [1] S50000) (v : Fin 50000) (k : Fin 64) : h.lift (ix1 v) k = ix2 v k :=
  funext fun a => Fin.ext (by match a with | ⟨0, _⟩ => rfl | ⟨1, _⟩ => rfl)

/-- A row's maximum as the reference takes it. -/
theorem row_max (v : Fin 50000) :
    val_main_call2_v2 (F := Ideal) a0 a1 a2 a3 a4 a5 a6 (ix1 v)
      = rowMax (fun k => val_main_v80 (F := Ideal) a0 a1 a2 a3 a4 a5 a6 (ix2 v k)) := by
  have hR : S50000x64.Reduces [1] S50000 := by decide
  have h0 : val_main_call2_v0 (F := Ideal) a0 a1 a2 a3 a4 a5 a6 (ix1 v)
      = rowMax (fun k => val_main_v80 (F := Ideal) a0 a1 a2 a3 a4 a5 a6 (ix2 v k)) := by
    unfold val_main_call2_v0
    refine (Host.reduce_eq_fold_single FloatOps.maximumf _ _ reducesTo_S50000x64_S50000_d1 hR h_S_ (ix1 v)).trans ?_
    unfold rowMax
    show (Finset.univ : Finset (Fin 64)).fold max negInf _ = _
    refine congrArg (fun f => (Finset.univ : Finset (Fin 64)).fold max negInf f) (funext fun k => ?_)
    exact congrArg (val_main_v80 (F := Ideal) a0 a1 a2 a3 a4 a5 a6) (lift_row hR v k)
  rw [val_main_call2_v2_apply, val_main_call2_v1_apply, val_main_call2_cst_0_apply, Ideal.maximumf_def, Ideal.ofBits_def, h0]
  refine max_eq_right ?_
  unfold rowMax
  exact (Finset.le_fold_max _).mpr (Or.inl le_rfl)

/-- The shifted logits at `(v, k)`. -/
theorem shifted (v : Fin 50000) (k : Fin 64) :
    val_main_call2_v5 (F := Ideal) a0 a1 a2 a3 a4 a5 a6 (ix2 v k)
      = val_main_v80 (F := Ideal) a0 a1 a2 a3 a4 a5 a6 (ix2 v k)
        - rowMax (fun k => val_main_v80 (F := Ideal) a0 a1 a2 a3 a4 a5 a6 (ix2 v k)) := by
  rw [val_main_call2_v5_apply, Ideal.subf_def, val_main_call2_v4_apply, val_main_call2_v3_apply]
  have hi : idx_main_call2_v3 (idx_main_call2_v4 (ix2 v k)) = ix1 v := funext fun a => Fin.ext (by match a with | ⟨0, _⟩ => rfl)
  rw [hi, row_max]

/-- THE REFERENCE's RESULT at `(v, q)` is the log-softmax of row `v` of the logits. -/
theorem softmax (v : Fin 50000) (q : Fin 64) :
    val_main_v81 (F := Ideal) a0 a1 a2 a3 a4 a5 a6 (ix2 v q)
      = logSoftmaxRow (fun k => val_main_v80 (F := Ideal) a0 a1 a2 a3 a4 a5 a6 (ix2 v k)) q := by
  unfold logSoftmaxRow
  rw [val_main_v81_apply, Ideal.subf_def, shifted]
  refine congrArg (fun z : EReal => (val_main_v80 (F := Ideal) a0 a1 a2 a3 a4 a5 a6 (ix2 v q)
    - rowMax (fun k => val_main_v80 (F := Ideal) a0 a1 a2 a3 a4 a5 a6 (ix2 v k))) - z) ?_
  rw [val_main_call2_v10_apply, val_main_call2_v9_apply, Ideal.hostUnary_log_def, val_main_call2_v8_apply]
  have hi : idx_main_call2_v8 (idx_main_call2_v10 (ix2 v q)) = ix1 v := funext fun a => Fin.ext (by match a with | ⟨0, _⟩ => rfl)
  rw [hi, val_main_call2_v7_apply, val_main_call2_cst_1_apply, Ideal.ofBits_def, Ideal.ofBits_zero_f32, zero_add]
  refine congrArg Ideal.log (Finset.sum_congr rfl fun k _ => ?_)
  have hk : idx_main_call2_v7 (ix1 v) k = ix2 v k := funext fun a => Fin.ext (by match a with | ⟨0, _⟩ => rfl | ⟨1, _⟩ => rfl)
  rw [hk, val_main_call2_v6_apply, Ideal.hostUnary_exp_def, shifted]

end Cert.GcnRef

end
-- ==== Proof.Bridge.lean ====
/-
  The bridge: the idealized kernel's result, as a function of the argument arrays, is the reference's.

  Both end with the log-softmax of each row of the logits, so it suffices that the logits agree entry by entry. The
  reference's logits at `(v, k)` are the sum over the edges arriving at `v` of `T (s e) · (d (s e) · d (g e))` plus the bias,
  with `T u = ∑ j, hidden u j · W₂ j k`; the kernel's are `(∑ e, (T' (s e) · d (s e))) · d v` plus the same bias, with
  `T'` built from the kernel's hidden activation. The two hidden activations agree by "aggregate then transform is
  transform then aggregate", the two sums by "scale after the sum is weight each edge"; both laws need real entries, which
  the precondition gives for the float inputs and the degree count gives for the node weights.
-/
import proofs.«129579_j9998683865528_2_alg».proof.Proof.KernelReading
import proofs.«129579_j9998683865528_2_alg».proof.Proof.RefReading
import proofs.«129579_j9998683865528_2_alg».proof.Proof.RefSoftmax
import Idealize.ShloMosaic.Lib.ValueLayout

open scoped BigOperators

noncomputable section

namespace Cert.GcnBridge

open Cert.KernelIdeal.GcnHost Cert.KernelIdeal.GcnKernelRead
open Cert.ReferenceIdeal.ReadP
open Idealize.ShloMosaic Idealize.ShloMosaic.ValueIdx Cert.GcnAlgebra Cert.GcnGraph Cert.GcnSpec

variable (a0 : FVec Ideal Cert.KernelIdeal.S50000x128 .f32) (a1 : IVec Cert.KernelIdeal.S2x800000 32)
  (a2 : FVec Ideal Cert.KernelIdeal.S128x256 .f32) (a3 : FVec Ideal Cert.KernelIdeal.S256 .f32)
  (a4 : FVec Ideal Cert.KernelIdeal.S256x64 .f32) (a5 : FVec Ideal Cert.KernelIdeal.S64 .f32)
  (a6 : FVec Ideal Cert.KernelIdeal.S50000x256 .f32)
  (h0 : ∀ i, IsReal (a0 i)) (h2 : ∀ i, IsReal (a2 i)) (h3 : ∀ i, IsReal (a3 i)) (h4 : ∀ i, IsReal (a4 i))
  (h6 : ∀ i, IsReal (a6 i))

/-- The bias row of the first dense layer, as the kernel's region finds it. -/
abbrev b1row : FVec Ideal Cert.KernelIdeal.S1x256 .f32 :=
  shapeCast Cert.KernelIdeal.S1x256 a3 Cert.KernelIdeal.Gen.shapeCasts_S256_S1x256
/-- The bias row of the second dense layer, as the kernel's region finds it. -/
abbrev b2row : FVec Ideal Cert.KernelIdeal.S1x64 .f32 :=
  shapeCast Cert.KernelIdeal.S1x64 a5 Cert.KernelIdeal.Gen.shapeCasts_S64_S1x64

include h0 h2 in
/-- The reference's first pre-activation is a real number. -/
theorem pre1_real (u : Fin 50000) (j : Fin 256) : IsReal (val_main_v43 (F := Ideal) a0 a1 a2 (ix2 u j)) := by
  rw [Cert.GcnRef.layer1]
  refine IsReal.sum _ _ fun e _ => IsReal.mul (IsReal.sum _ _ fun f _ => IsReal.mul (h0 _) (h2 _)) (IsReal.mul (d_real a1 _) (d_real a1 _))

include h0 h2 h3 h6 in
/-- The reference's hidden activation is a real number. -/
theorem hidden_real (u : Fin 50000) (j : Fin 256) : IsReal (val_main_v48 (F := Ideal) a0 a1 a2 a3 a6 (ix2 u j)) := by
  rw [Cert.GcnRef.hidden]
  exact IsReal.mul (IsReal.max (IsReal.add (pre1_real a0 a1 a2 h0 h2 u j) (h3 _)) IsReal.zero) (h6 _)

include h0 h2 h3 h4 h6 in
/-- The reference's second transform is a real number. -/
theorem hw_real (u : Fin 50000) (k : Fin 64) : IsReal (val_main_v49 (F := Ideal) a0 a1 a2 a3 a4 a6 (ix2 u k)) := by
  rw [Cert.GcnRef.hw]
  exact IsReal.sum _ _ fun j _ => IsReal.mul (hidden_real a0 a1 a2 a3 a6 h0 h2 h3 h6 u j) (h4 _)

include h0 h2 in
/-- THE HIDDEN ACTIVATIONS AGREE: the kernel's, from the aggregated features, is the reference's. -/
theorem hidden_eq (u : Fin 50000) (j : Fin 256) :
    GcnSpec.hidden (aggx a0 a1) (dcol a1) a2 (b1row a3) a6 u j = val_main_v48 (F := Ideal) a0 a1 a2 a3 a6 (ix2 u j) := by
  rw [Cert.GcnRef.hidden, Cert.GcnRef.layer1]
  unfold GcnSpec.hidden
  have hb : b1row a3 (ix2 (0 : Fin 1) j) = a3 (ix1 j) := shapeCast_a_1a_apply a3 _ 0 j
  rw [hb, dcol_apply]
  simp only [aggx_apply]
  have key := aggregate_then_transform (s a1) (g a1) (In a1) (g_of_mem a1) (d a1) (d_real a1)
    (fun v f => a0 (ix2 v f)) (fun v f => h0 _) (fun f j => a2 (ix2 f j)) (fun f j => h2 _) u j
  rw [key]

include h0 h2 h3 h4 h6 in
/-- THE LOGITS AGREE, entry by entry. -/
theorem logits_eq (v : Fin 50000) (k : Fin 64) :
    agg2 (fused (aggx a0 a1) (dcol a1) a2 (b1row a3) a6 a4) a1 (ix2 v k) + b2row a5 (ix2 (0 : Fin 1) k)
      = val_main_v80 (F := Ideal) a0 a1 a2 a3 a4 a5 a6 (ix2 v k) := by
  have hb : b2row a5 (ix2 (0 : Fin 1) k) = a5 (ix1 k) := shapeCast_a_1a_apply a5 _ 0 k
  rw [Cert.GcnRef.logits, agg2_apply, hb]
  refine congrArg (· + a5 (ix1 k)) ?_
  have hF : ∀ u : Fin 50000, fused (aggx a0 a1) (dcol a1) a2 (b1row a3) a6 a4 (ix2 u k)
      = val_main_v49 (F := Ideal) a0 a1 a2 a3 a4 a6 (ix2 u k) * d a1 u := by
    intro u
    rw [fused_apply]
    unfold fusedAt
    rw [dcol_apply, Cert.GcnRef.hw]
    refine congrArg (· * d a1 u) (Finset.sum_congr rfl fun j _ => ?_)
    rw [hidden_eq a0 a1 a2 a3 a6 h0 h2 u j]
  simp only [hF]
  exact scale_after_sum (s a1) (g a1) (In a1) (g_of_mem a1) (d a1) (d_real a1)
    (fun u => val_main_v49 (F := Ideal) a0 a1 a2 a3 a4 a6 (ix2 u k)) (fun u => hw_real a0 a1 a2 a3 a4 a6 h0 h2 h3 h4 h6 u k) v

include h0 h2 h3 h4 h6 in
/-- THE BRIDGE: the kernel's result function of the arguments is the reference's result stage. -/
theorem result_eq :
    biasLogSoftmax (agg2 (fused (aggx a0 a1) (dcol a1) a2 (b1row a3) a6 a4) a1) (b2row a5)
      = val_main_v81 (F := Ideal) a0 a1 a2 a3 a4 a5 a6 := by
  funext i
  obtain ⟨v, q, rfl⟩ : ∃ (v : Fin 50000) (q : Fin 64), i = ix2 v q := ⟨i 0, i 1, eq_ix2 i⟩
  rw [Cert.GcnRef.softmax, biasLogSoftmax_apply]
  exact congrArg (fun Z => logSoftmaxRow Z q) (funext fun k => logits_eq a0 a1 a2 a3 a4 a5 a6 h0 h2 h3 h4 h6 v k)

end Cert.GcnBridge

end
-- ==== Proof.Finite.lean ====
/-
  From the precondition to real entries.

  The precondition says, of each float input, that every entry's absolute value is below the float word of +∞, all
  these facts joined by `and`. Over the extended reals `|x| < +∞` leaves out exactly the two infinities, so every entry
  of every float input is a real number.
-/
import proofs.«129579_j9998683865528_2_alg».proof.Pre_finite_inputs
import proofs.«129579_j9998683865528_2_alg».proof.Proof.Gen.Pre_finite_inputs
import proofs.«129579_j9998683865528_2_alg».proof.Proof.LibRealEdgeSums
import Idealize.ShloMosaic.Lib.ReduceAll
import Idealize.ShloMosaic.Lib.ValueIdx
import Idealize.ShloMosaic.Lib.Affine

noncomputable section

namespace Cert.Pre_finite_inputs.GcnFinite

open Cert.Pre_finite_inputs Idealize.ShloMosaic Cert.GcnAlgebra

instance : Subsingleton S_.Idx := ⟨fun a b => funext fun d => d.elim0⟩

/-- The float word `0x7F800000` is +∞. -/
theorem posInf_word : Ideal.ofBits .f32 0x7F800000#32 = (⊤ : EReal) := by
  simp [Ideal.ofBits, Ideal.ieee]

/-- An extended real whose absolute value compares below +∞ is a real number. -/
theorem isReal_of_abs_lt (x : EReal)
    (h : FloatOps.cmpf (F := Ideal) (φ := .f32) .olt (FloatOps.absf (F := Ideal) (φ := .f32) x) (Ideal.ofBits .f32 0x7F800000#32) = 1#1) :
    IsReal x := by
  rw [Ideal.cmpf_def, Ideal.absf_def, posInf_word] at h
  have hlt : max x (-x) < ⊤ := by
    by_contra hn
    simp [Ideal.cmp, hn] at h
  induction x using EReal.rec with
  | bot => simp at hlt
  | top => simp at hlt
  | coe r => exact ⟨r, rfl⟩

/-- THE PRECONDITION's content: the five float inputs the layers multiply have real entries. -/
theorem real_of_pre [Facts] (a0 : FVec Ideal S50000x128 .f32) (a1 : IVec S2x800000 32) (a2 : FVec Ideal S128x256 .f32)
    (a3 : FVec Ideal S256 .f32) (a4 : FVec Ideal S256x64 .f32) (a5 : FVec Ideal S64 .f32) (a6 : FVec Ideal S50000x256 .f32)
    (h : fn (F := Ideal) a0 a1 a2 a3 a4 a5 a6 = fun _ => 1#1) :
    (∀ i, IsReal (a0 i)) ∧ (∀ i, IsReal (a2 i)) ∧ (∀ i, IsReal (a3 i)) ∧ (∀ i, IsReal (a4 i)) ∧ (∀ i, IsReal (a6 i)) := by
  have h0 := congrFun h ValueIdx.ix0
  dsimp only [fn, fn_part1] at h0
  obtain ⟨h1, e6⟩ := IntOp.andi_eq_one.1 h0
  obtain ⟨h2, e5⟩ := IntOp.andi_eq_one.1 h1
  obtain ⟨h3, e4⟩ := IntOp.andi_eq_one.1 h2
  obtain ⟨h4, e3⟩ := IntOp.andi_eq_one.1 h3
  obtain ⟨e0, e2⟩ := IntOp.andi_eq_one.1 h4
  exact ⟨fun i => isReal_of_abs_lt _ (Host.reduce_andi_all _ _ _ _ _ e0 i),
    fun i => isReal_of_abs_lt _ (Host.reduce_andi_all _ _ _ _ _ e2 i),
    fun i => isReal_of_abs_lt _ (Host.reduce_andi_all _ _ _ _ _ e3 i),
    fun i => isReal_of_abs_lt _ (Host.reduce_andi_all _ _ _ _ _ e4 i),
    fun i => isReal_of_abs_lt _ (Host.reduce_andi_all _ _ _ _ _ e6 i)⟩

end Cert.Pre_finite_inputs.GcnFinite

end
-- ==== Proof.lean ====
/-
  A two-layer graph convolution with a log-softmax head: the kernel against its reference, over the extended reals.

  Both programs build, from the edge list, the source and destination index vectors (with one self-loop per node), the
  in-degree of every node and the node weight `d = 1/sqrt(deg)` (zero where the degree is zero). The reference computes
  each layer as "transform, then aggregate": `out(v) = ∑ over edges e arriving at v of (h W)(src e) · d(src e) · d(dst e)`,
  plus a bias; between the layers a rectifier and a dropout mask; at the end the log-softmax of every row. The kernel
  computes the first layer as "aggregate, then transform": it scales the features by `d`, sums them over the arriving
  edges on the host, and a first kernel region scales the sum by `d(v)`, multiplies by `W₁`, adds the bias, rectifies,
  masks, multiplies by `W₂` and scales by `d` once more; the host sums those rows over the arriving edges and scales by
  `d(v)`; a second kernel region adds the bias and takes the log-softmax.

  Over the extended reals the two are the same function of the arguments: for an edge arriving at `v` the weight read at
  its destination is `d(v)`, a matrix product distributes over the finite edge sum, and so does the scaling by `d(v)`.
  Distributivity needs real entries: the float inputs are real by the precondition, the weights because a degree is a
  finite count. The two log-softmax heads are the same formula term by term.

  The frames: the two kernel programs' are the generated ones; the reference's is its run with the result dropped. The
  idealization rewrote nothing, so `preserves` asks nothing.
-/
import proofs.«129579_j9998683865528_2_alg».proof.Defs
import proofs.«129579_j9998683865528_2_alg».proof.Proof.Gen.Kernel
import proofs.«129579_j9998683865528_2_alg».proof.Proof.Gen.Kernel.Skeleton
import proofs.«129579_j9998683865528_2_alg».proof.Proof.Gen.Kernel.Launch
import proofs.«129579_j9998683865528_2_alg».proof.Proof.Gen.Kernel.Points
import proofs.«129579_j9998683865528_2_alg».proof.Proof.Gen.Kernel.Frame
import proofs.«129579_j9998683865528_2_alg».proof.Proof.Gen.KernelIdeal
import proofs.«129579_j9998683865528_2_alg».proof.Proof.Gen.KernelIdeal.Skeleton
import proofs.«129579_j9998683865528_2_alg».proof.Proof.Gen.KernelIdeal.Launch
import proofs.«129579_j9998683865528_2_alg».proof.Proof.Gen.KernelIdeal.Points
import proofs.«129579_j9998683865528_2_alg».proof.Proof.Gen.KernelIdeal.Frame
import proofs.«129579_j9998683865528_2_alg».proof.Proof.Gen.ReferenceIdeal
import proofs.«129579_j9998683865528_2_alg».proof.Proof.Gen.Pre_finite_inputs
import proofs.«129579_j9998683865528_2_alg».proof.Proof.KernelValue
import proofs.«129579_j9998683865528_2_alg».proof.Proof.Bridge
import proofs.«129579_j9998683865528_2_alg».proof.Proof.RefRunEq
import proofs.«129579_j9998683865528_2_alg».proof.Proof.Finite
import Idealize.ShloMosaic.Adequacy
import Idealize.ShloMosaic.Init

noncomputable section

namespace Cert.Proof

open Idealize.ShloMosaic Idealize.ShloMosaic.TcCoe Idealize.SL.Sem

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs run and end with the same result array: the
    kernel's at its result function of the arguments, the reference's at its last stage, and the two are one function
    where the float inputs are real. -/
theorem algebraic : Cert.algebraic_KernelIdeal_ReferenceIdeal := by
  intro m ρ m' ρ' hpre hagree
  refine ⟨fun c => Cert.KernelIdeal.Gen.W6 m ρ c (Proc.devRef .tc Cert.KernelIdeal.main_v43),
    Cert.KernelIdeal.GcnRun.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨r0, r2, r3, r4, r6⟩ := Cert.Pre_finite_inputs.GcnFinite.real_of_pre _ _ _ _ _ _ _ (hpre c)
  rw [Cert.ReferenceIdeal.ReadP.val_main_v81_eq, (hagree c).1, (hagree c).2.1, (hagree c).2.2.1, (hagree c).2.2.2.1,
    (hagree c).2.2.2.2.1, (hagree c).2.2.2.2.2.1, (hagree c).2.2.2.2.2.2]
  beta_reduce
  rw [Cert.KernelIdeal.GcnValue.result_value]
  unfold Cert.KernelIdeal.GcnValue.value
  exact (Cert.GcnBridge.result_eq _ _ _ _ _ _ _ r0 r2 r3 r4 r6).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
